-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "thr_sq" .f32 0x42FF6148#32 ((140396644490281 / 1099511627776 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S1x1x2048x2048 : Shape := ⟨4, ![1, 1, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S1x1x2048x2048 1) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S1x1x2048x2048 : Shape := ⟨4, ![1, 1, 2048, 2048]⟩
abbrev S2x16x2048x2048 : Shape := ⟨4, ![2, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S1x2048 : Shape := ⟨2, ![1, 2048]⟩
abbrev S512x64 : Shape := ⟨2, ![512, 64]⟩
abbrev S2048x64 : Shape := ⟨2, ![2048, 64]⟩
abbrev S512x2048 : Shape := ⟨2, ![512, 2048]⟩
abbrev S64x2048 : Shape := ⟨2, ![64, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S1x1x2048x2048, .i1⟩
  | .hbm, ⟨4, _⟩ => ⟨S1x1x2048x2048, .i32⟩
  | .hbm, ⟨5, _⟩ => ⟨S2x16x2048x64, .f32⟩
  | .hbm, ⟨6, _⟩ => ⟨S2x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x2048x2048, .i32⟩
  | .local _ .vmem, ⟨7, _⟩ => ⟨S1x1x512x64, .f32⟩
  | .local _ .vmem, ⟨8, _⟩ => ⟨S1x1x512x64, .f32⟩
  | .local _ .vmem, ⟨9, _⟩ => ⟨S1x1x512x2048, .f32⟩
  | .local _ .vmem, ⟨10, _⟩ => ⟨S1x1x512x2048, .f32⟩
  | .local _ .vmem, ⟨11, _⟩ => ⟨S1x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 16, 4], ![false, false, false]⟩

def k0_mult1 (i : grid0.Coords) : BitVec 32 :=
  let arg2 : BitVec 32 := BitVec.ofNat 32 (i 2).val
  let c512_i32 : BitVec 32 := 512#32
  let v0 : BitVec 32 := Scalar.muli arg2 c512_i32
  v0
def k0_off1 (i : grid0.Coords) : Fin 4 → Nat :=
  let c0_11 : Index := 0#32
  let c0_12 : Index := 0#32
  let arg2 : BitVec 32 := BitVec.ofNat 32 (i 2).val
  let c512_i32 : BitVec 32 := 512#32
  let v0 : BitVec 32 := Scalar.muli arg2 c512_i32
  let v1 : BitVec 32 := v0
  let v8 : Index := Scalar.indexCast v1
  let c0_13 : Index := 0#32
  ![0, 0, v8.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1x2048x2048 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  natLt_1_32 : 1 < 32
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  h_S1x1x512x2048 : 0 < S1x1x512x2048.numel
  shapeCasts_S1x1x512x2048_S512x2048 : S1x1x512x2048.ShapeCasts S512x2048
  transposes_S2048x64_p1_0_S64x2048 : S2048x64.Transposes [1, 0] S64x2048
  reduces_S512x64_S512 : S512x64.Reduces [1] S512
  shapeCasts_S512_S512x1 : S512.ShapeCasts S512x1
  reduces_S2048x64_S2048 : S2048x64.Reduces [1] S2048
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  reduces_S512x2048_S512 : S512x2048.Reduces [1] S512
  inb_S1x1x512x2048_S1x1x512x2048_0_0_0_0 : ∀ a, (![0, 0, 0, 0] : Fin 4 → Nat) a + S1x1x512x2048.size a ≤ S1x1x512x2048.size a
  shapeCasts_S512x2048_S1x1x512x2048 : S512x2048.ShapeCasts S1x1x512x2048
  shapeCasts_S512x64_S1x1x512x64 : S512x64.ShapeCasts S1x1x512x64
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x1x512x2048.size a ≤ S1x1x2048x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .f32 = 32 ∨ (Rect.block (s := S2x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x2048x2048.size a ≤ S1x1x2048x2048.size a
  hwx0_3 : ∀ i : grid0.Coords, EltTy.bits .i32 = 32 ∨ (Rect.block (s := S1x1x2048x2048) S1x1x2048x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S2x16x2048x64.size a
  hwx0_4 : ∀ i : grid0.Coords, EltTy.bits .f32 = 32 ∨ (Rect.block (s := S2x16x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S2x16x2048x2048.size a
  hwx0_5 : ∀ i : grid0.Coords, EltTy.bits .f32 = 32 ∨ (Rect.block (s := S2x16x2048x2048) S1x1x512x2048.size (cc0_transform_5 i) (hinb0_5 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S1x1x2048x2048 : Shape := ⟨4, ![1, 1, 2048, 2048]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S2x16x1x2048 : Shape := ⟨4, ![2, 16, 1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S1x1x2048x2048, .i1⟩
  | .hbm, ⟨4, _⟩ => ⟨S2x16x2048x2048, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S2x16x2048x64, .f32⟩
  | .hbm, ⟨9, _⟩ => ⟨S_, .f32⟩
  | .hbm, ⟨10, _⟩ => ⟨S2x16x2048, .f32⟩
  | .hbm, ⟨11, _⟩ => ⟨S2x16x2048x1, .f32⟩
  | .hbm, ⟨12, _⟩ => ⟨S2x16x2048x64, .f32⟩
  | .hbm, ⟨13, _⟩ => ⟨S_, .f32⟩
  | .hbm, ⟨14, _⟩ => ⟨S2x16x2048, .f32⟩
  | .hbm, ⟨15, _⟩ => ⟨S2x16x1x2048, .f32⟩
  | .hbm, ⟨16, _⟩ => ⟨S2x16x2048x2048, .f32⟩
  | .hbm, ⟨17, _⟩ => ⟨S2x16x2048x2048, .f32⟩
  | .hbm, ⟨18, _⟩ => ⟨S2x16x2048x2048, .f32⟩
  | .hbm, ⟨19, _⟩ => ⟨S_, .f32⟩
  | .hbm, ⟨20, _⟩ => ⟨S2x16x2048x2048, .f32⟩
  | .hbm, ⟨21, _⟩ => ⟨S2x16x2048x2048, .f32⟩
  | .hbm, ⟨22, _⟩ => ⟨S2x16x2048x2048, .f32⟩
  | .hbm, ⟨23, _⟩ => ⟨S_, .f32⟩
  | .hbm, ⟨24, _⟩ => ⟨S2x16x2048x2048, .f32⟩
  | .hbm, ⟨25, _⟩ => ⟨S2x16x2048x2048, .f32⟩
  | .hbm, ⟨26, _⟩ => ⟨S2x16x2048x2048, .f32⟩
  | .hbm, ⟨27, _⟩ => ⟨S_, .f32⟩
  | .hbm, ⟨28, _⟩ => ⟨S2x16x2048x2048, .f32⟩
  | .hbm, ⟨29, _⟩ => ⟨S2x16x2048x2048, .i1⟩
  | .hbm, ⟨30, _⟩ => ⟨S2x16x2048x2048, .i1⟩
  | .hbm, ⟨31, _⟩ => ⟨S2x16x2048x2048, .i1⟩
  | .hbm, ⟨32, _⟩ => ⟨S_, .f32⟩
  | .hbm, ⟨33, _⟩ => ⟨S2x16x2048x2048, .f32⟩
  | .hbm, ⟨34, _⟩ => ⟨S2x16x2048x2048, .f32⟩
  | .hbm, ⟨35, _⟩ => ⟨S_, .f32⟩
  | .hbm, ⟨36, _⟩ => ⟨S2x16x2048, .f32⟩
  | .hbm, ⟨37, _⟩ => ⟨S_, .f32⟩
  | .hbm, ⟨38, _⟩ => ⟨S2x16x2048, .f32⟩
  | .hbm, ⟨39, _⟩ => ⟨S2x16x2048, .f32⟩
  | .hbm, ⟨40, _⟩ => ⟨S2x16x2048x1, .f32⟩
  | .hbm, ⟨41, _⟩ => ⟨S2x16x2048x2048, .f32⟩
  | .hbm, ⟨42, _⟩ => ⟨S2x16x2048x2048, .f32⟩
  | .hbm, ⟨43, _⟩ => ⟨S2x16x2048x2048, .f32⟩
  | .hbm, ⟨44, _⟩ => ⟨S_, .f32⟩
  | .hbm, ⟨45, _⟩ => ⟨S2x16x2048, .f32⟩
  | .hbm, ⟨46, _⟩ => ⟨S2x16x2048x1, .f32⟩
  | .hbm, ⟨47, _⟩ => ⟨S2x16x2048x2048, .f32⟩
  | .hbm, ⟨48, _⟩ => ⟨S2x16x2048x2048, .f32⟩
  | .hbm, ⟨49, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_call0_v0 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x64_S2x16x2048_d3 : S2x16x2048x64.ReducesTo [3] S2x16x2048
  h_S_ : 0 < S_.numel
  bcast_S2x16x2048_S2x16x2048x1_0_1_2 : S2x16x2048.BroadcastsInDim S2x16x2048x1 (![0, 1, 2] : Fin 3 → Fin S2x16x2048x1.rank)
  bcast_S2x16x2048_S2x16x1x2048_0_1_3 : S2x16x2048.BroadcastsInDim S2x16x1x2048 (![0, 1, 3] : Fin 3 → Fin S2x16x1x2048.rank)
  bcast_S2x16x2048x1_S2x16x2048x2048_0_1_2_3 : S2x16x2048x1.BroadcastsInDim S2x16x2048x2048 (![0, 1, 2, 3] : Fin 4 → Fin S2x16x2048x2048.rank)
  bcast_S2x16x1x2048_S2x16x2048x2048_0_1_2_3 : S2x16x1x2048.BroadcastsInDim S2x16x2048x2048 (![0, 1, 2, 3] : Fin 4 → Fin S2x16x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  bcast_S_S2x16x2048 : S_.BroadcastsInDim S2x16x2048 (![] : Fin 0 → Fin S2x16x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Pieces.lean ====
/-
  What one grid point of the attention kernel leaves behind, as pure terms of what it loaded.

  A point (b, h, t) of the grid loads its 512 query rows, the 2048 key rows and value rows of its head, and 512 rows of
  the resident mask; it stores the 512 x 2048 block of attention weights and the 512 x 64 block of outputs.  The squared
  norms of the keys live in a scratch row that the first query tile of a head (t = 0) fills and the other three tiles
  read back.  The two theorems per output below say: the first tile's results are the body's arithmetic over the
  freshly computed squared norms, the later tiles' the same arithmetic over whatever the scratch row held.
-/
import proofs.«166054_j29824252903756_2_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F] [Named F]

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The 512 rows of the resident 2048 x 2048 mask that query tile `i 2` reads: rows `512 · (i 2)` onwards. -/
def maskRows (i : grid0.Coords) (x3 : Vec F S1x1x2048x2048 .i32) : Vec F S1x1x512x2048 .i32 :=
  View.ld x3 (Rect.unit (s := S1x1x2048x2048) (k0_off1 i) S1x1x512x2048.size (k0_off1_inb i))

/-- The attention-weight block as a term of the query block `x0`, the key block `x1`, the mask rows and the row
    `k2` of squared key norms. -/
def awTerm (i : grid0.Coords) (x0 : Vec F S1x1x512x64 .f32) (x1 : Vec F S1x1x2048x64 .f32) (x3 : Vec F S1x1x2048x2048 .i32)
    (k2 : Vec F S1x2048 .f32) : Vec F S1x1x512x2048 .f32 :=
  k0_pay2 (k0_pay7 (maskRows i x3)) (k0_pay9 x0 x1) (k0_pay11 x0 x1 k2) k0_pay12

/-- The output block: the weights times the value block `x2`. -/
def outTerm (i : grid0.Coords) (x0 : Vec F S1x1x512x64 .f32) (x1 x2 : Vec F S1x1x2048x64 .f32) (x3 : Vec F S1x1x2048x2048 .i32)
    (k2 : Vec F S1x2048 .f32) : Vec F S1x1x512x64 .f32 :=
  k0_pay3 (k0_pay6 x2) (k0_pay7 (maskRows i x3)) (k0_pay9 x0 x1) (k0_pay11 x0 x1 k2) k0_pay12

/-- The first query tile of a head fills the scratch row with the squared norms of the head's keys. -/
theorem sout_A (c : Dev nD) (i : grid0.Coords) (arg3 : Memref sig .tc .vmem S1x1x512x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x2048x2048 .i32) (harg6 : arg6.IsWhole) (arg7 : Memref sig .tc .vmem S1x1x512x64 .f32) (harg7 : arg7.IsWhole) (arg8 : Memref sig .tc .vmem S1x1x512x2048 .f32) (harg8 : arg8.IsWhole) (arg9 : Memref sig .tc .vmem S1x2048 .f32) (harg9 : arg9.IsWhole) (hc0 : cond0_0 i) (x0 : Vec F S1x1x512x64 .f32) (x1 : Vec F S1x1x2048x64 .f32) (x2 : Vec F S1x1x2048x64 .f32) (x3 : Vec F S1x1x2048x2048 .i32) :
    sout0_A_0 c i arg3 harg3 arg4 harg4 arg5 harg5 arg6 harg6 arg7 harg7 arg8 harg8 arg9 harg9 hc0 x0 x1 x2 x3 = k0_pay10 x1 := by
  unfold sout0_A_0
  rw [View.read_writes_eq_canon _ _ _ (scover0_A_0 c i arg3 harg3 arg4 harg4 arg5 harg5 arg6 harg6 arg7 harg7 arg8 harg8 arg9 harg9 hc0 x0 x1 x2 x3)]
  unfold kernelRun0_A
  dsimp only
  sl_unfold_words
  rw [View.canon_unit_zero hz2]
  simp only [View.readAt_eq_ld, harg4.read_unread, View.ld_unit_zero (S := S1x1x2048x64) hz4]

/-- The first query tile's weights: the body's arithmetic over the squared norms it has just stored. -/
theorem out5_A (c : Dev nD) (i : grid0.Coords) (arg3 : Memref sig .tc .vmem S1x1x512x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x2048x2048 .i32) (harg6 : arg6.IsWhole) (arg7 : Memref sig .tc .vmem S1x1x512x64 .f32) (harg7 : arg7.IsWhole) (arg8 : Memref sig .tc .vmem S1x1x512x2048 .f32) (harg8 : arg8.IsWhole) (arg9 : Memref sig .tc .vmem S1x2048 .f32) (harg9 : arg9.IsWhole) (hc0 : cond0_0 i) (x0 : Vec F S1x1x512x64 .f32) (x1 : Vec F S1x1x2048x64 .f32) (x2 : Vec F S1x1x2048x64 .f32) (x3 : Vec F S1x1x2048x2048 .i32) :
    out0_A_5 c i arg3 harg3 arg4 harg4 arg5 harg5 arg6 harg6 arg7 harg7 arg8 harg8 arg9 harg9 hc0 x0 x1 x2 x3 = awTerm i x0 x1 x3 (k0_pay10 x1) := by
  unfold out0_A_5
  rw [View.read_writes_eq_canon _ _ _ (cover0_A_5 c i arg3 harg3 arg4 harg4 arg5 harg5 arg6 harg6 arg7 harg7 arg8 harg8 arg9 harg9 hc0 x0 x1 x2 x3)]
  unfold kernelRun0_A
  dsimp only
  sl_unfold_words
  rw [View.canon_unit_zero hz4, View.readCov_unit_zero (S := S1x2048) _ hz2]
  simp only [View.readAt_eq_ld, harg3.read_unread, harg4.read_unread, harg5.read_unread, harg6.read_unread,
    View.ld_unit_zero (S := S1x1x2048x64) hz4, View.ld_unit_zero (S := S1x1x512x64) hz4]
  rfl

/-- The first query tile's outputs. -/
theorem out4_A (c : Dev nD) (i : grid0.Coords) (arg3 : Memref sig .tc .vmem S1x1x512x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x2048x2048 .i32) (harg6 : arg6.IsWhole) (arg7 : Memref sig .tc .vmem S1x1x512x64 .f32) (harg7 : arg7.IsWhole) (arg8 : Memref sig .tc .vmem S1x1x512x2048 .f32) (harg8 : arg8.IsWhole) (arg9 : Memref sig .tc .vmem S1x2048 .f32) (harg9 : arg9.IsWhole) (hc0 : cond0_0 i) (x0 : Vec F S1x1x512x64 .f32) (x1 : Vec F S1x1x2048x64 .f32) (x2 : Vec F S1x1x2048x64 .f32) (x3 : Vec F S1x1x2048x2048 .i32) :
    out0_A_4 c i arg3 harg3 arg4 harg4 arg5 harg5 arg6 harg6 arg7 harg7 arg8 harg8 arg9 harg9 hc0 x0 x1 x2 x3 = outTerm i x0 x1 x2 x3 (k0_pay10 x1) := by
  unfold out0_A_4
  rw [View.read_writes_eq_canon _ _ _ (cover0_A_4 c i arg3 harg3 arg4 harg4 arg5 harg5 arg6 harg6 arg7 harg7 arg8 harg8 arg9 harg9 hc0 x0 x1 x2 x3)]
  unfold kernelRun0_A
  dsimp only
  sl_unfold_words
  rw [View.canon_unit_zero hz4, View.readCov_unit_zero (S := S1x2048) _ hz2]
  simp only [View.readAt_eq_ld, harg3.read_unread, harg4.read_unread, harg5.read_unread, harg6.read_unread,
    View.ld_unit_zero (S := S1x1x2048x64) hz4, View.ld_unit_zero (S := S1x1x512x64) hz4]
  rfl

/-- A later query tile's weights: the same arithmetic over what the scratch row holds. -/
theorem out5_B (c : Dev nD) (i : grid0.Coords) (arg3 : Memref sig .tc .vmem S1x1x512x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x2048x2048 .i32) (harg6 : arg6.IsWhole) (arg7 : Memref sig .tc .vmem S1x1x512x64 .f32) (harg7 : arg7.IsWhole) (arg8 : Memref sig .tc .vmem S1x1x512x2048 .f32) (harg8 : arg8.IsWhole) (arg9 : Memref sig .tc .vmem S1x2048 .f32) (harg9 : arg9.IsWhole) (hc0 : ¬cond0_0 i) (x0 : Vec F S1x1x512x64 .f32) (x1 : Vec F S1x1x2048x64 .f32) (x2 : Vec F S1x1x2048x64 .f32) (x3 : Vec F S1x1x2048x2048 .i32) (xs0 : Vec F S1x2048 .f32) :
    out0_B_5 c i arg3 harg3 arg4 harg4 arg5 harg5 arg6 harg6 arg7 harg7 arg8 harg8 arg9 harg9 hc0 x0 x1 x2 x3 xs0 = awTerm i x0 x1 x3 xs0 := by
  unfold out0_B_5
  rw [View.read_writes_eq_canon _ _ _ (cover0_B_5 c i arg3 harg3 arg4 harg4 arg5 harg5 arg6 harg6 arg7 harg7 arg8 harg8 arg9 harg9 hc0 x0 x1 x2 x3 xs0)]
  unfold kernelRun0_B
  dsimp only
  sl_unfold_words
  rw [View.canon_unit_zero hz4]
  simp only [View.readAt_eq_ld, harg3.read_unread, harg4.read_unread, harg5.read_unread, harg6.read_unread, harg9.read_unread,
    View.ld_unit_zero (S := S1x1x2048x64) hz4, View.ld_unit_zero (S := S1x1x512x64) hz4, View.ld_unit_zero (S := S1x2048) hz2]
  rfl

/-- A later query tile's outputs. -/
theorem out4_B (c : Dev nD) (i : grid0.Coords) (arg3 : Memref sig .tc .vmem S1x1x512x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x2048x2048 .i32) (harg6 : arg6.IsWhole) (arg7 : Memref sig .tc .vmem S1x1x512x64 .f32) (harg7 : arg7.IsWhole) (arg8 : Memref sig .tc .vmem S1x1x512x2048 .f32) (harg8 : arg8.IsWhole) (arg9 : Memref sig .tc .vmem S1x2048 .f32) (harg9 : arg9.IsWhole) (hc0 : ¬cond0_0 i) (x0 : Vec F S1x1x512x64 .f32) (x1 : Vec F S1x1x2048x64 .f32) (x2 : Vec F S1x1x2048x64 .f32) (x3 : Vec F S1x1x2048x2048 .i32) (xs0 : Vec F S1x2048 .f32) :
    out0_B_4 c i arg3 harg3 arg4 harg4 arg5 harg5 arg6 harg6 arg7 harg7 arg8 harg8 arg9 harg9 hc0 x0 x1 x2 x3 xs0 = outTerm i x0 x1 x2 x3 xs0 := by
  unfold out0_B_4
  rw [View.read_writes_eq_canon _ _ _ (cover0_B_4 c i arg3 harg3 arg4 harg4 arg5 harg5 arg6 harg6 arg7 harg7 arg8 harg8 arg9 harg9 hc0 x0 x1 x2 x3 xs0)]
  unfold kernelRun0_B
  dsimp only
  sl_unfold_words
  rw [View.canon_unit_zero hz4]
  simp only [View.readAt_eq_ld, harg3.read_unread, harg4.read_unread, harg5.read_unread, harg6.read_unread, harg9.read_unread,
    View.ld_unit_zero (S := S1x1x2048x64) hz4, View.ld_unit_zero (S := S1x1x512x64) hz4, View.ld_unit_zero (S := S1x2048) hz2]
  rfl

end Cert.KernelIdeal.Pieces

end
-- ==== Proof.Carry.lean ====
/-
  The scratch row across the grid, and what every point leaves in the two output blocks.

  The grid runs over (batch, head, query tile) with the query tile innermost: point `t` is batch `t / 64`, head
  `t / 4 % 16`, tile `t % 4`.  The key block of a point depends on its batch and head only, so the four tiles of a head
  see one key block, and the scratch row filled at tile 0 — the squared norms of that block's rows — is still the squared
  norms of the point's OWN key block at tiles 1, 2, 3.  By induction on the point, then, every point computes its weights
  and outputs from the squared norms of the keys it loaded, wherever they were computed.
-/
import proofs.«166054_j29824252903756_2_alg».proof.Proof.Pieces

set_option maxRecDepth 16384

noncomputable section

namespace Cert.KernelIdeal.Carry

open Idealize.ShloMosaic Idealize.ShloMosaic.TcCoe Idealize.SL.Sem
open Cert.KernelIdeal Cert.KernelIdeal.Gen Cert.KernelIdeal.Pieces

variable {F : FTy → Type} [FloatOps F] [Named F]
variable (m : (ℓ : Loc nD τ sig) → Buf (Elt F) ℓ)

/-- The printed index maps in closed form, decided over the 128 points: queries, weights and outputs move with
    (batch, head, tile); keys and values with (batch, head); the mask never moves; the tile coordinate is `t % 4`. -/
theorem idx_facts : ∀ t : Fin cfg0.N,
    (win0_0.index t (0 : Fin 4) = t.val / 64 ∧ win0_0.index t (1 : Fin 4) = t.val / 4 % 16 ∧ win0_0.index t (2 : Fin 4) = t.val % 4 ∧ win0_0.index t (3 : Fin 4) = 0)
    ∧ (win0_1.index t (0 : Fin 4) = t.val / 64 ∧ win0_1.index t (1 : Fin 4) = t.val / 4 % 16 ∧ win0_1.index t (2 : Fin 4) = 0 ∧ win0_1.index t (3 : Fin 4) = 0)
    ∧ (win0_2.index t (0 : Fin 4) = t.val / 64 ∧ win0_2.index t (1 : Fin 4) = t.val / 4 % 16 ∧ win0_2.index t (2 : Fin 4) = 0 ∧ win0_2.index t (3 : Fin 4) = 0)
    ∧ (win0_3.index t (0 : Fin 4) = 0 ∧ win0_3.index t (1 : Fin 4) = 0 ∧ win0_3.index t (2 : Fin 4) = 0 ∧ win0_3.index t (3 : Fin 4) = 0)
    ∧ (win0_4.index t (0 : Fin 4) = t.val / 64 ∧ win0_4.index t (1 : Fin 4) = t.val / 4 % 16 ∧ win0_4.index t (2 : Fin 4) = t.val % 4 ∧ win0_4.index t (3 : Fin 4) = 0)
    ∧ (win0_5.index t (0 : Fin 4) = t.val / 64 ∧ win0_5.index t (1 : Fin 4) = t.val / 4 % 16 ∧ win0_5.index t (2 : Fin 4) = t.val % 4 ∧ win0_5.index t (3 : Fin 4) = 0)
    ∧ (grid0.coords t (2 : Fin 3)).val = t.val % 4 :=
  (by decide +kernel : ∀ t : Fin grid0.N, _)

/-- Within a head the key block does not move: a point that is not a head's first tile has the key block of the
    point before it. -/
theorem keys_prev (c : Dev nD) (t : Fin cfg0.N) (h0 : ¬t.val % 4 = 0) :
    (iblk m c 1 ⟨t.val - 1, Nat.lt_of_le_of_lt (Nat.sub_le _ _) t.isLt⟩ : Vec F S1x1x2048x64 .f32) = iblk m c 1 t := by
  obtain ⟨-, ⟨a0, a1, a2, a3⟩, -⟩ := idx_facts t
  obtain ⟨-, ⟨b0, b1, b2, b3⟩, -⟩ := idx_facts ⟨t.val - 1, Nat.lt_of_le_of_lt (Nat.sub_le _ _) t.isLt⟩
  funext y
  unfold iblk
  rw [View.read_apply, View.read_apply]
  refine congrArg (V m c (Pipeline.arrRef spec0 1)) (funext fun a => Fin.ext ?_)
  match a with
  | ⟨0, _⟩ => show win0_1.index ⟨t.val - 1, _⟩ (0 : Fin 4) * 1 + 1 * (y 0).val = win0_1.index t (0 : Fin 4) * 1 + 1 * (y 0).val; rw [a0, b0]; dsimp only; omega
  | ⟨1, _⟩ => show win0_1.index ⟨t.val - 1, _⟩ (1 : Fin 4) * 1 + 1 * (y 1).val = win0_1.index t (1 : Fin 4) * 1 + 1 * (y 1).val; rw [a1, b1]; dsimp only; omega
  | ⟨2, _⟩ => show win0_1.index ⟨t.val - 1, _⟩ (2 : Fin 4) * 2048 + 1 * (y 2).val = win0_1.index t (2 : Fin 4) * 2048 + 1 * (y 2).val; rw [a2, b2]
  | ⟨3, _⟩ => show win0_1.index ⟨t.val - 1, _⟩ (3 : Fin 4) * 64 + 1 * (y 3).val = win0_1.index t (3 : Fin 4) * 64 + 1 * (y 3).val; rw [a3, b3]

/-- THE INVARIANT: after any point the scratch row holds the squared norms of that point's key block. -/
theorem scratch_eq_aux (c : Dev nD) : ∀ (n : ℕ) (t : Fin cfg0.N), t.val = n →
    (outsAt0 m c t.val t.isLt).2.2 = k0_pay10 (iblk m c 1 t) := by
  intro n
  induction n using Nat.strong_induction_on with
  | _ n ih =>
  intro t hn
  by_cases h0 : t.val % 4 = 0
  · rw [outsAt0_A m c t h0]
    dsimp only
    exact sout_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t)
  · rw [outsAt0_B m c t h0]
    dsimp only
    unfold sout0_B_0
    rw [ih (t.val - 1) (by omega) ⟨t.val - 1, Nat.lt_of_le_of_lt (Nat.sub_le _ _) t.isLt⟩ rfl]
    exact congrArg k0_pay10 (keys_prev m c t h0)

theorem scratch_eq (c : Dev nD) (t : Fin cfg0.N) : (outsAt0 m c t.val t.isLt).2.2 = k0_pay10 (iblk m c 1 t) :=
  scratch_eq_aux m c t.val t rfl

/-- So what the point before a later tile left in the scratch row is the squared norms of the tile's own keys. -/
theorem scratch_prev (c : Dev nD) (t : Fin cfg0.N) (h0 : ¬t.val % 4 = 0) :
    (outsAt0 m c (t.val - 1) (Nat.lt_of_le_of_lt (Nat.sub_le _ _) t.isLt)).2.2 = k0_pay10 (iblk m c 1 t) :=
  (scratch_eq m c ⟨t.val - 1, Nat.lt_of_le_of_lt (Nat.sub_le _ _) t.isLt⟩).trans (congrArg k0_pay10 (keys_prev m c t h0))

/-- EVERY point's weights: the body's arithmetic of the blocks it loaded, the squared key norms being those of its own
    key block. -/
theorem weights_at (c : Dev nD) (t : Fin cfg0.N) :
    (outsAt0 m c t.val t.isLt).2.1 = awTerm (grid0.coords t) (iblk m c 0 t) (iblk m c 1 t) (iblk m c 3 t) (k0_pay10 (iblk m c 1 t)) := by
  by_cases h0 : t.val % 4 = 0
  · rw [outsAt0_A m c t h0]
    dsimp only
    exact out5_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t)
  · rw [outsAt0_B m c t h0]
    dsimp only
    rw [scratch_prev m c t h0]
    exact out5_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (k0_pay10 (iblk m c 1 t))

/-- EVERY point's outputs likewise. -/
theorem outputs_at (c : Dev nD) (t : Fin cfg0.N) :
    (outsAt0 m c t.val t.isLt).1 = outTerm (grid0.coords t) (iblk m c 0 t) (iblk m c 1 t) (iblk m c 2 t) (iblk m c 3 t) (k0_pay10 (iblk m c 1 t)) := by
  by_cases h0 : t.val % 4 = 0
  · rw [outsAt0_A m c t h0]
    dsimp only
    exact out4_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t)
  · rw [outsAt0_B m c t h0]
    dsimp only
    rw [scratch_prev m c t h0]
    exact out4_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (k0_pay10 (iblk m c 1 t))

end Cert.KernelIdeal.Carry

end
-- ==== Proof.Consts.lean ====
/-
  The float words the two programs spell, as the extended reals they denote.
-/
import Idealize.ShloMosaic.PureOps.Ideal

noncomputable section

namespace Cert.Attn.Consts

open Idealize.ShloMosaic

/-- The word of `8.0`, the reference's divisor of the raw scores, denotes the real `8`. -/
theorem ofBits_eight : Ideal.ofBits .f32 0x41000000#32 = ((8 : ℝ) : EReal) := by
  simp [Ideal.ofBits, Ideal.ieee, -EReal.coe_mul]; norm_num

/-- The word of `0.125`, the kernel's multiplier of the raw scores, denotes the real `1/8`. -/
theorem ofBits_eighth : Ideal.ofBits .f32 0x3E000000#32 = ((1 / 8 : ℝ) : EReal) := by
  simp [Ideal.ofBits, Ideal.ieee, -EReal.coe_mul]; norm_num

/-- The reference's distance threshold, the word nearest `11.3`, denotes `11848909 / 2^20`. -/
theorem ofBits_thr : Ideal.ofBits .f32 0x4134CCCD#32 = ((11848909 / 1048576 : ℝ) : EReal) := by
  simp [Ideal.ofBits, Ideal.ieee, -EReal.coe_mul]; norm_num

/-- The all-ones-exponent word with the sign set denotes `-∞`, the bottom of the extended reals. -/
theorem ofBits_ninf : Ideal.ofBits .f32 0xFF800000#32 = ⊥ := by
  simp [Ideal.ofBits, Ideal.ieee]

/-- `+0.0` denotes `0`. -/
theorem ofBits_zero : Ideal.ofBits .f32 0x00000000#32 = 0 := by
  simp [Ideal.ofBits, Ideal.ieee]

end Cert.Attn.Consts

end
-- ==== Proof.Spec.lean ====
/-
  Masked softmax attention over one query row, on the extended reals, and the two spellings of its score.

  For a query row `q` and the 2048 key rows `K j` of its head, with raw scores `q·K j` and squared distances
  `|q|² + |K j|² − 2 q·K j` clamped at zero, key `j` is masked when the mask bit is set or the distance reaches the
  threshold; a masked key scores `-10⁹`, an unmasked one its raw score over 8.  The weights are the softmax of the
  scores along the row (shifted by the row's maximum), the output their combination of the value rows.

  One program tests the SQUARED distance against the threshold's square and multiplies the raw score by 1/8; the other
  tests the distance itself, the square root, against the threshold and divides the raw score by 8.  On the extended
  reals these are one function: for `d ≥ 0` (or `d = +∞`), `T ≤ √d` iff `T² ≤ d`, and a quotient by 8 is the
  product with 1/8 whatever the dividend.
-/
import Idealize.ShloMosaic.PureOps.Ideal
import Idealize.ShloMosaic.PureOps.Ideal.Laws
import Idealize.ShloMosaic.PureOps.Vector
import Idealize.ShloMosaic.Lib.ValueIdx
import proofs.«166054_j29824252903756_2_alg».proof.Proof.Consts

noncomputable section

open scoped BigOperators

namespace Cert.Attn

open Idealize.ShloMosaic

/-- The square of the distance threshold `T = 11848909 / 2^20` (the binary fraction nearest 11.3). -/
def thrSq : EReal := ((140396644490281 / 1099511627776 : ℝ) : EReal)

/-- The squared distance, clamped at zero: `max (|q|² + |k|² − 2 q·k) 0`. -/
def dist2 (qk nq nk : EReal) : EReal :=
  max (nq + nk - Ideal.ofBits .f32 0x40000000#32 * qk) (Ideal.ofBits .f32 0x00000000#32)

/-- The score of one (query, key) pair, the squared distance tested against the squared threshold, the raw score
    multiplied by 1/8. -/
def scoreSq (mk : BitVec 1) (qk nq nk : EReal) : EReal :=
  Scalar.select (IntOp.ori mk (Ideal.cmp .oge (dist2 qk nq nk) thrSq))
    (Ideal.ofBits .f32 0xCE6E6B28#32) (qk * Ideal.ofBits .f32 0x3E000000#32)

/-- The same score, the distance itself tested against the threshold, the raw score divided by 8. -/
def scoreRt (mk : BitVec 1) (qk nq nk : EReal) : EReal :=
  Scalar.select (IntOp.ori mk (Ideal.cmp .oge (Ideal.sqrt (dist2 qk nq nk)) (Ideal.ofBits .f32 0x4134CCCD#32)))
    (Ideal.ofBits .f32 0xCE6E6B28#32) (Ideal.div qk (Ideal.ofBits .f32 0x41000000#32))

/-- For a non-negative extended real the threshold is below its square root exactly when the threshold's square is
    below it. -/
theorem thr_le_sqrt_iff (d : EReal) (hd : 0 ≤ d) :
    Ideal.ofBits .f32 0x4134CCCD#32 ≤ Ideal.sqrt d ↔ thrSq ≤ d := by
  rw [Consts.ofBits_thr, thrSq]
  induction d using EReal.rec with
  | bot => exact absurd hd (by simp)
  | top => simp
  | coe r =>
    have hr : 0 ≤ r := EReal.coe_nonneg.mp hd
    rw [Ideal.sqrt_coe, if_neg (not_lt.mpr hr), EReal.coe_le_coe_iff, EReal.coe_le_coe_iff,
      Real.le_sqrt' (by norm_num)]
    norm_num

/-- The two spellings of the score agree. -/
theorem scoreSq_eq_scoreRt (mk : BitVec 1) (qk nq nk : EReal) : scoreSq mk qk nq nk = scoreRt mk qk nq nk := by
  unfold scoreSq scoreRt
  have hd : 0 ≤ dist2 qk nq nk := by
    unfold dist2; rw [Consts.ofBits_zero]; exact le_max_right _ _
  have hc : Ideal.cmp .oge (dist2 qk nq nk) thrSq
      = Ideal.cmp .oge (Ideal.sqrt (dist2 qk nq nk)) (Ideal.ofBits .f32 0x4134CCCD#32) := by
    unfold Ideal.cmp
    simp only [thr_le_sqrt_iff _ hd]
  rw [hc, Consts.ofBits_eight, Consts.ofBits_eighth, Ideal.div_coe (by norm_num : (8 : ℝ) ≠ 0)]

/-- The maximum of a row of scores, from `-∞`. -/
def rowMax (s : Fin 2048 → EReal) : EReal :=
  (Finset.univ : Finset (Fin 2048)).fold max (Ideal.ofBits .f32 0xFF800000#32) s

/-- Softmax along a row: each score shifted by the row's maximum, exponentiated, divided by the row's sum. -/
def softmax (s : Fin 2048 → EReal) (j : Fin 2048) : EReal :=
  Ideal.div (Ideal.exp (s j - rowMax s)) (∑ j' : Fin 2048, Ideal.exp (s j' - rowMax s))

/-- The dot product of two rows of 64 entries. -/
def dot (a b : Fin 64 → EReal) : EReal := ∑ d : Fin 64, a d * b d

/-- The attention weights of query row `q` over the keys `K` under the mask row `mk`. -/
def weights (q : Fin 64 → EReal) (K : Fin 2048 → Fin 64 → EReal) (mk : Fin 2048 → BitVec 1) : Fin 2048 → EReal :=
  softmax fun j => scoreSq (mk j) (dot q (K j)) (dot q q) (dot (K j) (K j))

/-- The output row: the weights' combination of the value rows. -/
def output (w : Fin 2048 → EReal) (V : Fin 2048 → Fin 64 → EReal) (d : Fin 64) : EReal :=
  ∑ j : Fin 2048, w j * V j d

/-- THE WEIGHTS ARRAY as one function of the argument arrays: at `(b, h, r, j)` the weight of key `j` of head `(b, h)`
    for its query `r`, under row `r` of the one mask every head shares. -/
def GW (x0 x1 : (⟨4, ![2, 16, 2048, 64]⟩ : Shape).Idx → EReal) (x3 : (⟨4, ![1, 1, 2048, 2048]⟩ : Shape).Idx → BitVec 1) :
    (⟨4, ![2, 16, 2048, 2048]⟩ : Shape).Idx → EReal := fun i =>
  weights (fun d => x0 (ValueIdx.ix4 (i 0) (i 1) (i 2) d)) (fun j d => x1 (ValueIdx.ix4 (i 0) (i 1) j d))
    (fun j => x3 (ValueIdx.ix4 (0 : Fin 1) (0 : Fin 1) (i 2) j)) (i 3)

/-- THE OUTPUT ARRAY likewise: at `(b, h, r, d)` the weights of query `r` combining column `d` of the head's values. -/
def GO (x0 x1 x2 : (⟨4, ![2, 16, 2048, 64]⟩ : Shape).Idx → EReal) (x3 : (⟨4, ![1, 1, 2048, 2048]⟩ : Shape).Idx → BitVec 1) :
    (⟨4, ![2, 16, 2048, 64]⟩ : Shape).Idx → EReal := fun i =>
  output (weights (fun d => x0 (ValueIdx.ix4 (i 0) (i 1) (i 2) d)) (fun j d => x1 (ValueIdx.ix4 (i 0) (i 1) j d))
    (fun j => x3 (ValueIdx.ix4 (0 : Fin 1) (0 : Fin 1) (i 2) j))) (fun j d => x2 (ValueIdx.ix4 (i 0) (i 1) j d)) (i 3)

/-- Taking the maximum with `-∞` once more changes nothing. -/
theorem max_ninf_left (x : EReal) : max (Ideal.ofBits .f32 0xFF800000#32) x = x := by
  rw [Consts.ofBits_ninf]; exact max_bot_left x

/-- A one-bit word widened to 32 bits is nonzero exactly when the bit is set. -/
theorem ne_zero_of_widen : ∀ b : BitVec 1, IntOp.cmpi .ne (b.setWidth 32) 0#32 = b := by decide

end Cert.Attn

end
-- ==== Proof.LibCast4.lean ====
/-
  Two leading unit axes added to or dropped from a matrix by a shape cast.

  The row-major position of `(0, 0, i, j)` in `[1, 1, a, b]` is `((0 · 1 + 0) · a + i) · b + j = i · b + j`, the position
  of `(i, j)` in `[a, b]`: the cast either way moves no entry.
-/
import Idealize.ShloMosaic.Lib.Pipeline.Value
import Idealize.ShloMosaic.Lib.ValueIdx

namespace Idealize.ShloMosaic.LibCast4

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`, whatever the unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

end Idealize.ShloMosaic.LibCast4
-- ==== Proof.LibRowReduce.lean ====
/-
  A reduction of a matrix along its rows, read at a row.

  Reducing an `[a, b]` array over its second axis leaves one entry per row: for a sum, the sum of the row's `b` entries;
  for a maximum, the fold of `max` over them from the initial value.
-/
import Idealize.ShloMosaic.PureOps.Ideal
import Idealize.ShloMosaic.PureOps.Ideal.Laws
import Idealize.ShloMosaic.Lib.ValueIdx

noncomputable section

open scoped BigOperators

namespace Idealize.ShloMosaic.LibRowReduce

open Idealize.ShloMosaic Idealize.ShloMosaic.ValueIdx

variable {φ : FTy}

/-- The reduced index `p` with coordinate `k` put back on the reduced axis is `(p, k)`. -/
theorem lift_row {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

/-- A row sum: `vector.multi_reduction <add>` of an `[a, b]` array over its second axis, at row `p`. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A row maximum: `vector.multi_reduction <maximumf>` of an `[a, b]` array over its second axis, at row `p`. -/
theorem multiReduction_maximumf_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg ((Finset.univ : Finset (Fin b)).fold max (Ideal.ofBits φ acc)) (funext fun k => congrArg src (lift_row h p k)))

end Idealize.ShloMosaic.LibRowReduce

end
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.LibMatmul2.lean ====
/-
  A matrix product of a `[M, K]` array by a `[K, N]` array, contracted over the one shared axis, read at `(p, q)`:
  the sum over `k` of the left operand at `(p, k)` times the right operand at `(k, q)`.
-/
import Idealize.ShloMosaic.PureOps.Ideal
import Idealize.ShloMosaic.PureOps.Ideal.Laws
import Idealize.ShloMosaic.Lib.ValueIdx
import proofs.«166054_j29824252903756_2_alg».proof.Proof.LibDotSum

noncomputable section

open scoped BigOperators

namespace Idealize.ShloMosaic.LibMatmul2

open Idealize.ShloMosaic Idealize.ShloMosaic.ValueIdx

/-- The contraction sum of a `[M, K] × [K, N]` product at `(p, q)`, over the contracted coordinate.  The two facts
    about the free axes (`hl0`, `hr1`: the left operand's row is the result's row, the right operand's column the result's
    column) are read off a program's literal dimension numbers. -/
theorem contr_sum {M K N : Nat} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (x : (⟨2, ![M, K]⟩ : Shape).Idx → EReal) (y : (⟨2, ![K, N]⟩ : Shape).Idx → EReal) (p : Fin M) (q : Fin N) :
    ∑ c : D.contr.Idx, x (D.lhsIdx (ix2 p q) c) * y (D.rhsIdx (ix2 p q) c) = ∑ k : Fin K, x (ix2 p k) * y (ix2 k q) := by
  refine LibDotSum.sum_single D K hr hs x y (ix2 p q) (fun k => x (ix2 p k)) (fun k => y (ix2 k q)) (fun k => ?_) (fun k => ?_)
  · refine congrArg x (funext fun a => Fin.ext ?_)
    match a with
    | ⟨0, _⟩ => exact hl0 _ _
    | ⟨1, _⟩ => exact LibDotSum.lhs_contr_val D K hr hs hlc _ k
  · refine congrArg y (funext fun a => Fin.ext ?_)
    match a with
    | ⟨0, _⟩ => exact LibDotSum.rhs_contr_val D K hr hs hrc _ k
    | ⟨1, _⟩ => exact hr1 _ _

/-- A kernel's matrix product into a zero accumulator, at `(p, q)`. -/
theorem matmul_zero_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) :=
  (Ideal.matmul_constant_zero_apply D prec x y (ix2 p q)).trans (contr_sum D hr hs hlc hrc hl0 hr1 x y p q)

/-- The host's `dot_general` of the same shape, at `(p, q)`. -/
theorem dotGeneral_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  simp only [Host.dotGeneral]
  rw [Ideal.dotGeneral_apply]
  exact contr_sum D hr hs hlc hrc hl0 hr1 x y p q

end Idealize.ShloMosaic.LibMatmul2

end
-- ==== Proof.LibColumn.lean ====
/-
  Keepdims columns.

  A vector of `a` entries viewed as a column `[a, 1]` holds entry `i` at `(i, 0)`: the row-major position of `(i, u)` in
  `[a, 1]` is `i · 1 + u = i`.
-/
import Idealize.ShloMosaic.Lib.Pipeline.Value
import Idealize.ShloMosaic.Lib.ValueIdx

namespace Idealize.ShloMosaic.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.LibColumn
-- ==== Proof.LibColumnBroadcast.lean ====
/-
  One column broadcast over many.

  A keepdims column `[a, 1]` broadcast to `[a, b]` holds, at `(p, c)`, the column's entry of row `p`: the operand's second
  axis is a unit axis, so the broadcast reads it at `0`, and the first axis is carried along.
-/
import Idealize.ShloMosaic.Lib.Pipeline.Value
import Idealize.ShloMosaic.Lib.ValueIdx

namespace Idealize.ShloMosaic.LibColumnBroadcast

open Idealize.ShloMosaic Idealize.ShloMosaic.ValueIdx

variable {α : Type}

/-- An `[a, 1]` array broadcast to `[a, b]` reads, at `(p, c)`, the operand's entry `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.LibColumnBroadcast
-- ==== Proof.KValue.lean ====
/-
  One grid point's two blocks, entry by entry.

  With `Q` the point's 512 query rows, `K` and `V` its head's 2048 key and value rows and `M` the 512 mask rows it
  reads, the weight block holds at `(p, j)` the softmax weight of key `j` for query `Q p`, and the output block at
  `(p, d)` the weights' combination of column `d` of `V` — provided the row of squared key norms the body adds in is
  that of `K`.  The body's steps are read one at a time: the raw scores `Q p · K j` (a matrix product with the transposed
  key block), the squared norms (row sums of squares, one kept as a column and one as a row, broadcast against each
  other), the masked score, the row maximum, the exponentials and their row sum, the quotient, and the second product.
-/
import proofs.«166054_j29824252903756_2_alg».proof.Proof.Gen.KernelIdeal.Skeleton
import proofs.«166054_j29824252903756_2_alg».proof.Proof.Spec
import proofs.«166054_j29824252903756_2_alg».proof.Proof.LibCast4
import proofs.«166054_j29824252903756_2_alg».proof.Proof.LibRowReduce
import proofs.«166054_j29824252903756_2_alg».proof.Proof.LibMatmul2
import proofs.«166054_j29824252903756_2_alg».proof.Proof.LibColumn
import proofs.«166054_j29824252903756_2_alg».proof.Proof.LibColumnBroadcast
import Idealize.ShloMosaic.Lib.ValueLayout
import Idealize.ShloMosaic.Lib.Pipeline.Value
import Idealize.ShloMosaic.PureOps.IdealRules

set_option maxRecDepth 16384

noncomputable section

namespace Cert.KernelIdeal.KValue

open scoped BigOperators
open Idealize.ShloMosaic Idealize.ShloMosaic.ValueIdx
open Cert.KernelIdeal Cert.KernelIdeal.Gen Cert.Attn

variable (x0 : Vec Ideal S1x1x512x64 .f32) (x1 x2 : Vec Ideal S1x1x2048x64 .f32) (mk4 : Vec Ideal S1x1x512x2048 .i32)

/-- Row `p` of the query block. -/
abbrev qRow (p : Fin 512) : Fin 64 → EReal := fun d => x0 (ix4 (0 : Fin 1) (0 : Fin 1) p d)
/-- Row `j` of a key or value block. -/
abbrev kvRow (x : Vec Ideal S1x1x2048x64 .f32) (j : Fin 2048) : Fin 64 → EReal := fun d => x (ix4 (0 : Fin 1) (0 : Fin 1) j d)
/-- Row `p` of the mask rows read, as bits. -/
abbrev mRow (p : Fin 512) : Fin 2048 → BitVec 1 := fun j => IntOp.cmpi .ne (mk4 (ix4 (0 : Fin 1) (0 : Fin 1) p j)) 0#32

theorem q_apply (p : Fin 512) (d : Fin 64) : k0_pay4 (F := Ideal) x0 (ix2 p d) = qRow x0 p d := by
  unfold k0_pay4
  exact LibCast4.shapeCast_11ab_ab_apply x0 _ p d

theorem k_apply (j : Fin 2048) (d : Fin 64) : k0_pay5 (F := Ideal) x1 (ix2 j d) = kvRow x1 j d := by
  unfold k0_pay5
  exact LibCast4.shapeCast_11ab_ab_apply x1 _ j d

theorem v_apply (j : Fin 2048) (d : Fin 64) : k0_pay6 (F := Ideal) x2 (ix2 j d) = kvRow x2 j d := by
  unfold k0_pay6
  exact LibCast4.shapeCast_11ab_ab_apply x2 _ j d

theorem mask_apply (p : Fin 512) (j : Fin 2048) : k0_pay7 (F := Ideal) mk4 (ix2 p j) = mRow mk4 p j := by
  unfold k0_pay7
  exact congrArg (fun w => IntOp.cmpi .ne w 0#32) (LibCast4.shapeCast_11ab_ab_apply mk4 _ p j)

/-! ### The first product: raw scores -/

theorem dotA_l0 : ∀ j q, ((dot_S512x64_S64x2048_S512x2048_1_0_0_1_n_n).lhsIdx j q 0).val = (j 0).val := fun j q => by
  unfold DotDims.lhsIdx
  rw [dif_neg (show ¬(0 : Fin S512x64.rank) ∈ (dot_S512x64_S64x2048_S512x2048_1_0_0_1_n_n).lhsBatch by decide), dif_pos (show (0 : Fin S512x64.rank) ∈ (dot_S512x64_S64x2048_S512x2048_1_0_0_1_n_n).lhsNonContracting by decide)]
  rfl

theorem dotA_r1 : ∀ j q, ((dot_S512x64_S64x2048_S512x2048_1_0_0_1_n_n).rhsIdx j q 1).val = (j 1).val := fun j q => by
  unfold DotDims.rhsIdx
  rw [dif_neg (show ¬(1 : Fin S64x2048.rank) ∈ (dot_S512x64_S64x2048_S512x2048_1_0_0_1_n_n).rhsBatch by decide), dif_pos (show (1 : Fin S64x2048.rank) ∈ (dot_S512x64_S64x2048_S512x2048_1_0_0_1_n_n).rhsNonContracting by decide)]
  rfl

/-- The raw score of query `p` against key `j`: their dot product (the product is taken with the key block transposed). -/
theorem qk_apply (p : Fin 512) (j : Fin 2048) : k0_pay8 (F := Ideal) x0 x1 (ix2 p j) = dot (qRow x0 p) (kvRow x1 j) := by
  unfold k0_pay8
  refine (LibMatmul2.matmul_zero_apply (M := 512) (K := 64) (N := 2048) dot_S512x64_S64x2048_S512x2048_1_0_0_1_n_n rfl rfl rfl rfl dotA_l0 dotA_r1 (some .fp32)
    (k0_pay4 x0) (transpose S64x2048 [1, 0] (k0_pay5 x1) transposes_S2048x64_p1_0_S64x2048) p j).trans ?_
  exact Finset.sum_congr rfl fun d _ => congrArg₂ (· * ·) (q_apply x0 p d)
    ((transpose_ix2_apply (k0_pay5 x1) transposes_S2048x64_p1_0_S64x2048 d j).trans (k_apply x1 j d))

theorem scaled_apply (p : Fin 512) (j : Fin 2048) :
    k0_pay9 (F := Ideal) x0 x1 (ix2 p j) = k0_pay8 (F := Ideal) x0 x1 (ix2 p j) * Ideal.ofBits .f32 0x3E000000#32 := rfl

/-! ### Squared norms -/

/-- The scratch row's entry `j`: the squared norm of key `j`. -/
theorem k2_apply (u : Fin 1) (j : Fin 2048) : k0_pay10 (F := Ideal) x1 (ix2 u j) = dot (kvRow x1 j) (kvRow x1 j) := by
  unfold k0_pay10
  refine (congrFun (shapeCast_self _ shapeCasts_S1x2048_S1x2048) (ix2 u j)).trans ?_
  refine (shapeCast_a_1a_apply _ shapeCasts_S2048_S1x2048 u j).trans ?_
  refine (LibRowReduce.multiReduction_add_row (mulf (k0_pay5 x1) (k0_pay5 x1)) _ reduces_S2048x64_S2048 _ _ j).trans ?_
  exact Finset.sum_congr rfl fun d _ => congrArg₂ (· * ·) (k_apply x1 j d) (k_apply x1 j d)

/-- The clamped-to-be squared distance of query `p` and key `j` before the clamp, over a row `k2` of squared key norms. -/
theorem d_apply (k2 : Vec Ideal S1x2048 .f32) (p : Fin 512) (j : Fin 2048) :
    k0_pay11 (F := Ideal) x0 x1 k2 (ix2 p j)
      = dot (qRow x0 p) (qRow x0 p) + k2 (ix2 (0 : Fin 1) j) - Ideal.ofBits .f32 0x40000000#32 * k0_pay8 (F := Ideal) x0 x1 (ix2 p j) := by
  unfold k0_pay11
  refine congrArg₂ (fun a b : EReal => a + b - Ideal.ofBits .f32 0x40000000#32 * k0_pay8 (F := Ideal) x0 x1 (ix2 p j)) ?_ ?_
  · refine (LibColumnBroadcast.broadcastTo_a1_ab_apply _ broadcasts_S512x1_S512x2048 p j).trans ?_
    refine (LibColumn.shapeCast_a_a1_apply _ shapeCasts_S512_S512x1 p 0).trans ?_
    refine (LibRowReduce.multiReduction_add_row (mulf (k0_pay4 x0) (k0_pay4 x0)) _ reduces_S512x64_S512 _ _ p).trans ?_
    exact Finset.sum_congr rfl fun d _ => congrArg₂ (· * ·) (q_apply x0 p d) (q_apply x0 p d)
  · exact broadcastTo_1b_ab_apply k2 broadcasts_S1x2048_S512x2048 p j

theorem zero_apply (i : S512x2048.Idx) : k0_pay12 (F := Ideal) i = Ideal.ofBits .f32 0x00000000#32 := rfl

/-! ### The masked score and the softmax along a row -/

/-- The kernel's named threshold denotes the square of the reference's threshold. -/
theorem thr_named : Named.named (F := Ideal) Cert.KernelIdeal.κ "thr_sq" (φ := .f32) 0x42FF6148#32 = thrSq :=
  IdealRules.named_const.ideal_named_scalar _ _ _ _ rfl

/-- The masked scores as the body computes them from the mask bits, the scaled scores, the distances and the zero block. -/
def scoresV (v11 : IVec S512x2048 1) (v15 v28 v29 : FVec Ideal S512x2048 .f32) : FVec Ideal S512x2048 .f32 :=
  select (ori v11 (cmpf .oge (maximumf v28 v29) (broadcast S512x2048 (Named.named Cert.KernelIdeal.κ "thr_sq" 0x42FF6148#32))))
    (broadcast S512x2048 (Scalar.ofBits .f32 0xCE6E6B28#32)) v15

theorem scoresV_apply (v11 : IVec S512x2048 1) (v15 v28 v29 : FVec Ideal S512x2048 .f32) (i : S512x2048.Idx) :
    scoresV v11 v15 v28 v29 i
      = Scalar.select (IntOp.ori (v11 i) (Ideal.cmp .oge (max (v28 i) (v29 i)) thrSq)) (Ideal.ofBits .f32 0xCE6E6B28#32) (v15 i) := by
  unfold scoresV
  show Scalar.select (IntOp.ori (v11 i) (Ideal.cmp .oge (max (v28 i) (v29 i)) (Named.named (F := Ideal) Cert.KernelIdeal.κ "thr_sq" (φ := .f32) 0x42FF6148#32)))
    (Ideal.ofBits .f32 0xCE6E6B28#32) (v15 i) = _
  rw [thr_named]

/-- Each row's maximum, spread back over the row. -/
def rowMaxV (s : FVec Ideal S512x2048 .f32) : FVec Ideal S512x2048 .f32 :=
  broadcastTo S512x2048 (shapeCast S512x1 (multiReduction .maximumf [1] S512 s 0xFF800000#32 reduces_S512x2048_S512 (.inl rfl) rfl)
    shapeCasts_S512_S512x1) broadcasts_S512x1_S512x2048

/-- The exponentials of the scores shifted by their row's maximum. -/
def expV (s : FVec Ideal S512x2048 .f32) : FVec Ideal S512x2048 .f32 := exp (subf s (rowMaxV s))

/-- Each row's sum of exponentials, spread back over the row. -/
def rowSumV (s : FVec Ideal S512x2048 .f32) : FVec Ideal S512x2048 .f32 :=
  broadcastTo S512x2048 (shapeCast S512x1 (multiReduction .add [1] S512 (expV s) 0x00000000#32 reduces_S512x2048_S512 (.inl rfl) rfl)
    shapeCasts_S512_S512x1) broadcasts_S512x1_S512x2048

theorem pay1_eq (v11 : IVec S512x2048 1) (v15 v28 v29 : FVec Ideal S512x2048 .f32) :
    k0_pay1 (F := Ideal) v11 v15 v28 v29 = divf (expV (scoresV v11 v15 v28 v29)) (rowSumV (scoresV v11 v15 v28 v29)) := rfl

theorem rowMaxV_apply (s : FVec Ideal S512x2048 .f32) (p : Fin 512) (j : Fin 2048) :
    rowMaxV s (ix2 p j) = rowMax fun k => s (ix2 p k) := by
  unfold rowMaxV
  refine (LibColumnBroadcast.broadcastTo_a1_ab_apply _ broadcasts_S512x1_S512x2048 p j).trans ?_
  refine (LibColumn.shapeCast_a_a1_apply _ shapeCasts_S512_S512x1 p 0).trans ?_
  exact LibRowReduce.multiReduction_maximumf_row s _ reduces_S512x2048_S512 _ _ p

theorem expV_apply (s : FVec Ideal S512x2048 .f32) (p : Fin 512) (j : Fin 2048) :
    expV s (ix2 p j) = Ideal.exp (s (ix2 p j) - rowMax fun k => s (ix2 p k)) := by
  unfold expV
  exact congrArg (fun z : EReal => Ideal.exp (s (ix2 p j) - z)) (rowMaxV_apply s p j)

theorem rowSumV_apply (s : FVec Ideal S512x2048 .f32) (p : Fin 512) (j : Fin 2048) :
    rowSumV s (ix2 p j) = ∑ k : Fin 2048, Ideal.exp (s (ix2 p k) - rowMax fun k' => s (ix2 p k')) := by
  unfold rowSumV
  refine (LibColumnBroadcast.broadcastTo_a1_ab_apply _ broadcasts_S512x1_S512x2048 p j).trans ?_
  refine (LibColumn.shapeCast_a_a1_apply _ shapeCasts_S512_S512x1 p 0).trans ?_
  refine (LibRowReduce.multiReduction_add_row (expV s) _ reduces_S512x2048_S512 _ _ p).trans ?_
  exact Finset.sum_congr rfl fun k _ => expV_apply s p k

/-- The quotient is the softmax of the row of masked scores. -/
theorem pay1_apply (v11 : IVec S512x2048 1) (v15 v28 v29 : FVec Ideal S512x2048 .f32) (p : Fin 512) (j : Fin 2048) :
    k0_pay1 (F := Ideal) v11 v15 v28 v29 (ix2 p j) = softmax (fun k => scoresV v11 v15 v28 v29 (ix2 p k)) j := by
  rw [pay1_eq]
  exact congrArg₂ Ideal.div (expV_apply _ p j) (rowSumV_apply _ p j)

end Cert.KernelIdeal.KValue

end
-- ==== Proof.KBlock.lean ====
/-
  One grid point's blocks as rows of attention: the weight block's row `p` is the softmax attention of query row `p`
  over the point's keys under mask row `p`, and the output block's row `p` its combination of the point's values.
-/
import proofs.«166054_j29824252903756_2_alg».proof.Proof.KValue
import proofs.«166054_j29824252903756_2_alg».proof.Proof.Pieces

set_option maxRecDepth 16384

noncomputable section

namespace Cert.KernelIdeal.KBlock

open scoped BigOperators
open Idealize.ShloMosaic Idealize.ShloMosaic.ValueIdx
open Cert.KernelIdeal Cert.KernelIdeal.Gen Cert.KernelIdeal.KValue Cert.Attn

variable (x0 : Vec Ideal S1x1x512x64 .f32) (x1 x2 : Vec Ideal S1x1x2048x64 .f32) (mk4 : Vec Ideal S1x1x512x2048 .i32)

/-- The masked score of query `p` and key `k`, over the squared norms of the point's own keys. -/
theorem score_apply (p : Fin 512) (k : Fin 2048) :
    scoresV (k0_pay7 (F := Ideal) mk4) (k0_pay9 x0 x1) (k0_pay11 x0 x1 (k0_pay10 x1)) k0_pay12 (ix2 p k)
      = scoreSq (mRow mk4 p k) (dot (qRow x0 p) (kvRow x1 k)) (dot (qRow x0 p) (qRow x0 p)) (dot (kvRow x1 k) (kvRow x1 k)) := by
  rw [scoresV_apply, mask_apply, scaled_apply, d_apply, zero_apply, qk_apply, k2_apply]
  rfl

/-- The weight of key `j` for query `p`. -/
theorem weights_apply (p : Fin 512) (j : Fin 2048) :
    k0_pay1 (F := Ideal) (k0_pay7 mk4) (k0_pay9 x0 x1) (k0_pay11 x0 x1 (k0_pay10 x1)) k0_pay12 (ix2 p j)
      = weights (qRow x0 p) (kvRow x1) (mRow mk4 p) j := by
  refine (pay1_apply _ _ _ _ p j).trans ?_
  unfold weights
  exact congrArg (fun s => softmax s j) (funext fun k => score_apply x0 x1 mk4 p k)

theorem dotB_l0 : ∀ j q, ((dot_S512x2048_S2048x64_S512x64_1_0_0_1_n_n).lhsIdx j q 0).val = (j 0).val := fun j q => by
  unfold DotDims.lhsIdx
  rw [dif_neg (show ¬(0 : Fin S512x2048.rank) ∈ (dot_S512x2048_S2048x64_S512x64_1_0_0_1_n_n).lhsBatch by decide), dif_pos (show (0 : Fin S512x2048.rank) ∈ (dot_S512x2048_S2048x64_S512x64_1_0_0_1_n_n).lhsNonContracting by decide)]
  rfl

theorem dotB_r1 : ∀ j q, ((dot_S512x2048_S2048x64_S512x64_1_0_0_1_n_n).rhsIdx j q 1).val = (j 1).val := fun j q => by
  unfold DotDims.rhsIdx
  rw [dif_neg (show ¬(1 : Fin S2048x64.rank) ∈ (dot_S512x2048_S2048x64_S512x64_1_0_0_1_n_n).rhsBatch by decide), dif_pos (show (1 : Fin S2048x64.rank) ∈ (dot_S512x2048_S2048x64_S512x64_1_0_0_1_n_n).rhsNonContracting by decide)]
  rfl

/-- THE WEIGHT BLOCK of a point, entry by entry. -/
theorem awTerm_apply (i : grid0.Coords) (x3 : Vec Ideal S1x1x2048x2048 .i32) (u v : Fin 1) (p : Fin 512) (j : Fin 2048) :
    Pieces.awTerm (F := Ideal) i x0 x1 x3 (k0_pay10 x1) (ix4 u v p j)
      = weights (qRow x0 p) (kvRow x1) (mRow (Pieces.maskRows i x3) p) j := by
  unfold Pieces.awTerm k0_pay2
  refine (LibCast4.shapeCast_ab_11ab_apply _ shapeCasts_S512x2048_S1x1x512x2048 u v p j).trans ?_
  exact weights_apply x0 x1 (Pieces.maskRows i x3) p j

/-- THE OUTPUT BLOCK of a point, entry by entry. -/
theorem outTerm_apply (i : grid0.Coords) (x3 : Vec Ideal S1x1x2048x2048 .i32) (u v : Fin 1) (p : Fin 512) (d : Fin 64) :
    Pieces.outTerm (F := Ideal) i x0 x1 x2 x3 (k0_pay10 x1) (ix4 u v p d)
      = output (weights (qRow x0 p) (kvRow x1) (mRow (Pieces.maskRows i x3) p)) (kvRow x2) d := by
  unfold Pieces.outTerm k0_pay3
  refine (LibCast4.shapeCast_ab_11ab_apply _ shapeCasts_S512x64_S1x1x512x64 u v p d).trans ?_
  refine (LibMatmul2.matmul_zero_apply (M := 512) (K := 2048) (N := 64) dot_S512x2048_S2048x64_S512x64_1_0_0_1_n_n rfl rfl rfl rfl dotB_l0 dotB_r1 none
    (k0_pay1 (F := Ideal) (k0_pay7 (Pieces.maskRows i x3)) (k0_pay9 x0 x1) (k0_pay11 x0 x1 (k0_pay10 x1)) k0_pay12) (k0_pay6 x2) p d).trans ?_
  unfold output
  exact Finset.sum_congr rfl fun j _ => congrArg₂ (· * ·) (weights_apply x0 x1 (Pieces.maskRows i x3) p j) (v_apply x2 j d)

end Cert.KernelIdeal.KBlock

end
-- ==== Proof.KFinal.lean ====
/-
  From blocks to the two result arrays.

  Point `t` = (batch `t / 64`, head `t / 4 % 16`, tile `t % 4`) reads rows `512 · (t % 4) …` of its head's queries, all of
  its head's keys and values, and the same rows of the one mask; it writes the same rows of its head's weights and outputs.
  So the weight block it writes back is the block of the specification's weights array `GW` of the ARGUMENT arrays that
  its window names, and likewise the output block of `GO`; the 128 blocks tile each result array (a result row
  `(b, h, r)` lies in the block of point `64 b + 4 h + r / 512`), so each result array ends as that function of the
  arguments.  The mask reaches the kernel widened to 32-bit words, of which the body keeps "nonzero": the bit itself.
-/
import proofs.«166054_j29824252903756_2_alg».proof.Proof.Gen.KernelIdeal.Value
import proofs.«166054_j29824252903756_2_alg».proof.Proof.Carry
import proofs.«166054_j29824252903756_2_alg».proof.Proof.KBlock
import Idealize.ShloMosaic.Lib.StableHlo.Run

set_option maxRecDepth 16384

noncomputable section

namespace Cert.KernelIdeal.KFinal

open scoped BigOperators
open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.KernelIdeal.Pieces Cert.KernelIdeal.KValue Cert.KernelIdeal.KBlock Cert.Attn

variable (m : (ℓ : Loc nD τ sig) → Buf (Elt Ideal) ℓ) (ρ : Dev nD → PrngReg)

/-- The mask as the region finds it: each bit of the argument widened to a 32-bit word. -/
theorem mask_words (c : Dev nD) :
    (V m c main_v0 : S1x1x2048x2048.Idx → BitVec 32) = extui 32 (m ((c : Thread nD τ).loc main_arg3)) natLt_1_32 := by
  dsimp only [Gen.V, Gen.hostOps0]
  after_results

/-- One entry of a weight block against the specification's weights array, over the literal block types: it is enough
    that the block's query row, key rows and mask row are the arrays' rows at the global index. -/
theorem entry5 (i : grid0.Coords) (x0 : Vec Ideal S1x1x512x64 .f32) (x1 : Vec Ideal S1x1x2048x64 .f32)
    (x3 : Vec Ideal S1x1x2048x2048 .i32) (A0 A1 : S2x16x2048x64.Idx → EReal) (A3 : S1x1x2048x2048.Idx → BitVec 1)
    (y : S1x1x512x2048.Idx) (g : S2x16x2048x2048.Idx)
    (hq : ∀ d, x0 (ix4 (0 : Fin 1) (0 : Fin 1) (y 2) d) = A0 (ix4 (g 0) (g 1) (g 2) d))
    (hk : ∀ j d, x1 (ix4 (0 : Fin 1) (0 : Fin 1) j d) = A1 (ix4 (g 0) (g 1) j d))
    (hm : ∀ j, IntOp.cmpi .ne (maskRows i x3 (ix4 (0 : Fin 1) (0 : Fin 1) (y 2) j)) 0#32 = A3 (ix4 (0 : Fin 1) (0 : Fin 1) (g 2) j))
    (hj : (y 3).val = (g 3).val) :
    awTerm (F := Ideal) i x0 x1 x3 (k0_pay10 x1) y = GW A0 A1 A3 g := by
  refine (congrArg (awTerm (F := Ideal) i x0 x1 x3 (k0_pay10 x1)) (eq_ix4 y)).trans ?_
  refine (awTerm_apply x0 x1 i x3 (y 0) (y 1) (y 2) (y 3)).trans ?_
  have e1 : qRow x0 (y 2) = fun d => A0 (ix4 (g 0) (g 1) (g 2) d) := funext hq
  have e2 : kvRow x1 = fun j d => A1 (ix4 (g 0) (g 1) j d) := funext fun j => funext (hk j)
  have e3 : mRow (maskRows i x3) (y 2) = fun j => A3 (ix4 (0 : Fin 1) (0 : Fin 1) (g 2) j) := funext hm
  have e4 : (y 3 : Fin 2048) = g 3 := Fin.ext hj
  rw [e1, e2, e3, e4]
  rfl

/-- One entry of an output block against the specification's output array. -/
theorem entry4 (i : grid0.Coords) (x0 : Vec Ideal S1x1x512x64 .f32) (x1 x2 : Vec Ideal S1x1x2048x64 .f32)
    (x3 : Vec Ideal S1x1x2048x2048 .i32) (A0 A1 A2 : S2x16x2048x64.Idx → EReal) (A3 : S1x1x2048x2048.Idx → BitVec 1)
    (y : S1x1x512x64.Idx) (g : S2x16x2048x64.Idx)
    (hq : ∀ d, x0 (ix4 (0 : Fin 1) (0 : Fin 1) (y 2) d) = A0 (ix4 (g 0) (g 1) (g 2) d))
    (hk : ∀ j d, x1 (ix4 (0 : Fin 1) (0 : Fin 1) j d) = A1 (ix4 (g 0) (g 1) j d))
    (hv : ∀ j d, x2 (ix4 (0 : Fin 1) (0 : Fin 1) j d) = A2 (ix4 (g 0) (g 1) j d))
    (hm : ∀ j, IntOp.cmpi .ne (maskRows i x3 (ix4 (0 : Fin 1) (0 : Fin 1) (y 2) j)) 0#32 = A3 (ix4 (0 : Fin 1) (0 : Fin 1) (g 2) j))
    (hj : (y 3).val = (g 3).val) :
    outTerm (F := Ideal) i x0 x1 x2 x3 (k0_pay10 x1) y = GO A0 A1 A2 A3 g := by
  refine (congrArg (outTerm (F := Ideal) i x0 x1 x2 x3 (k0_pay10 x1)) (eq_ix4 y)).trans ?_
  refine (outTerm_apply x0 x1 x2 i x3 (y 0) (y 1) (y 2) (y 3)).trans ?_
  have e1 : qRow x0 (y 2) = fun d => A0 (ix4 (g 0) (g 1) (g 2) d) := funext hq
  have e2 : kvRow x1 = fun j d => A1 (ix4 (g 0) (g 1) j d) := funext fun j => funext (hk j)
  have e2' : kvRow x2 = fun j d => A2 (ix4 (g 0) (g 1) j d) := funext fun j => funext (hv j)
  have e3 : mRow (maskRows i x3) (y 2) = fun j => A3 (ix4 (0 : Fin 1) (0 : Fin 1) (g 2) j) := funext hm
  have e4 : (y 3 : Fin 64) = g 3 := Fin.ext hj
  rw [e1, e2, e2', e3, e4]
  rfl

/-- The query block of point `t`, entry `(p, d)`: the queries argument at batch `t / 64`, head `t / 4 % 16`,
    row `512 · (t % 4) + p`. -/
theorem read0 (c : Dev nD) (t : Fin cfg0.N) (p : Fin 512) (d : Fin 64) (gi : S2x16x2048x64.Idx)
    (h0 : (gi 0).val = t.val / 64) (h1 : (gi 1).val = t.val / 4 % 16) (h2 : (gi 2).val = t.val % 4 * 512 + p.val)
    (h3 : (gi 3).val = d.val) :
    (iblk m c 0 t : Vec Ideal S1x1x512x64 .f32) (ix4 (0 : Fin 1) (0 : Fin 1) p d) = (m ((c : Thread nD τ).loc main_arg0)) gi := by
  obtain ⟨⟨a0, a1, a2, a3⟩, -⟩ := Carry.idx_facts t
  unfold iblk
  rw [View.read_apply]
  show V m c main_arg0 _ = _
  refine (congrFun (V_main_arg0 m c) _).trans ?_
  refine congrArg (m ((c : Thread nD τ).loc main_arg0)) (funext fun a => Fin.ext ?_)
  match a with
  | ⟨0, _⟩ => show win0_0.index t (0 : Fin 4) * 1 + 1 * 0 = (gi 0).val; rw [a0, h0]; omega
  | ⟨1, _⟩ => show win0_0.index t (1 : Fin 4) * 1 + 1 * 0 = (gi 1).val; rw [a1, h1]; omega
  | ⟨2, _⟩ => show win0_0.index t (2 : Fin 4) * 512 + 1 * p.val = (gi 2).val; rw [a2, h2]; omega
  | ⟨3, _⟩ => show win0_0.index t (3 : Fin 4) * 64 + 1 * d.val = (gi 3).val; rw [a3, h3]; omega

/-- The key block of point `t`, entry `(j, d)`: the keys argument at the point's batch and head, row `j`. -/
theorem read1 (c : Dev nD) (t : Fin cfg0.N) (j : Fin 2048) (d : Fin 64) (gi : S2x16x2048x64.Idx)
    (h0 : (gi 0).val = t.val / 64) (h1 : (gi 1).val = t.val / 4 % 16) (h2 : (gi 2).val = j.val) (h3 : (gi 3).val = d.val) :
    (iblk m c 1 t : Vec Ideal S1x1x2048x64 .f32) (ix4 (0 : Fin 1) (0 : Fin 1) j d) = (m ((c : Thread nD τ).loc main_arg1)) gi := by
  obtain ⟨-, ⟨a0, a1, a2, a3⟩, -⟩ := Carry.idx_facts t
  unfold iblk
  rw [View.read_apply]
  show V m c main_arg1 _ = _
  refine (congrFun (V_main_arg1 m c) _).trans ?_
  refine congrArg (m ((c : Thread nD τ).loc main_arg1)) (funext fun a => Fin.ext ?_)
  match a with
  | ⟨0, _⟩ => show win0_1.index t (0 : Fin 4) * 1 + 1 * 0 = (gi 0).val; rw [a0, h0]; omega
  | ⟨1, _⟩ => show win0_1.index t (1 : Fin 4) * 1 + 1 * 0 = (gi 1).val; rw [a1, h1]; omega
  | ⟨2, _⟩ => show win0_1.index t (2 : Fin 4) * 2048 + 1 * j.val = (gi 2).val; rw [a2, h2]; omega
  | ⟨3, _⟩ => show win0_1.index t (3 : Fin 4) * 64 + 1 * d.val = (gi 3).val; rw [a3, h3]; omega

/-- The value block of point `t` likewise. -/
theorem read2 (c : Dev nD) (t : Fin cfg0.N) (j : Fin 2048) (d : Fin 64) (gi : S2x16x2048x64.Idx)
    (h0 : (gi 0).val = t.val / 64) (h1 : (gi 1).val = t.val / 4 % 16) (h2 : (gi 2).val = j.val) (h3 : (gi 3).val = d.val) :
    (iblk m c 2 t : Vec Ideal S1x1x2048x64 .f32) (ix4 (0 : Fin 1) (0 : Fin 1) j d) = (m ((c : Thread nD τ).loc main_arg2)) gi := by
  obtain ⟨-, -, ⟨a0, a1, a2, a3⟩, -⟩ := Carry.idx_facts t
  unfold iblk
  rw [View.read_apply]
  show V m c main_arg2 _ = _
  refine (congrFun (V_main_arg2 m c) _).trans ?_
  refine congrArg (m ((c : Thread nD τ).loc main_arg2)) (funext fun a => Fin.ext ?_)
  match a with
  | ⟨0, _⟩ => show win0_2.index t (0 : Fin 4) * 1 + 1 * 0 = (gi 0).val; rw [a0, h0]; omega
  | ⟨1, _⟩ => show win0_2.index t (1 : Fin 4) * 1 + 1 * 0 = (gi 1).val; rw [a1, h1]; omega
  | ⟨2, _⟩ => show win0_2.index t (2 : Fin 4) * 2048 + 1 * j.val = (gi 2).val; rw [a2, h2]; omega
  | ⟨3, _⟩ => show win0_2.index t (3 : Fin 4) * 64 + 1 * d.val = (gi 3).val; rw [a3, h3]; omega

/-- The mask rows point `t` reads, entry `(p, j)`, as a bit: the mask argument's bit at row `512 · (t % 4) + p`. -/
theorem read3 (c : Dev nD) (t : Fin cfg0.N) (p : Fin 512) (j : Fin 2048) (r : Fin 2048) (hr : r.val = t.val % 4 * 512 + p.val) :
    IntOp.cmpi .ne (maskRows (grid0.coords t) (iblk m c 3 t : Vec Ideal S1x1x2048x2048 .i32) (ix4 (0 : Fin 1) (0 : Fin 1) p j)) 0#32
      = (m ((c : Thread nD τ).loc main_arg3)) (ix4 (0 : Fin 1) (0 : Fin 1) r j) := by
  obtain ⟨-, -, -, ⟨a0, a1, a2, a3⟩, -, -, hc⟩ := Carry.idx_facts t
  have e : maskRows (grid0.coords t) (iblk m c 3 t : Vec Ideal S1x1x2048x2048 .i32) (ix4 (0 : Fin 1) (0 : Fin 1) p j)
      = ((m ((c : Thread nD τ).loc main_arg3)) (ix4 (0 : Fin 1) (0 : Fin 1) r j)).setWidth 32 := by
    unfold maskRows iblk
    show (((cfg0.win 3).blk t).view.read (Elt Ideal) (V m c (Pipeline.arrRef spec0 3))) _ = _
    rw [View.read_apply]
    show V m c main_v0 _ = _
    refine (congrFun (mask_words m c) _).trans ?_
    show ((m ((c : Thread nD τ).loc main_arg3)) _).setWidth 32 = _
    refine congrArg (fun w => ((m ((c : Thread nD τ).loc main_arg3)) w).setWidth 32) (funext fun a => Fin.ext ?_)
    have ho := k0_off1_eq (grid0.coords t)
    match a with
    | ⟨0, _⟩ => show win0_3.index t (0 : Fin 4) * 1 + 1 * (k0_off1 (grid0.coords t) 0 + 1 * 0) = 0; rw [a0, ho]; rfl
    | ⟨1, _⟩ => show win0_3.index t (1 : Fin 4) * 1 + 1 * (k0_off1 (grid0.coords t) 1 + 1 * 0) = 0; rw [a1, ho]; rfl
    | ⟨2, _⟩ => show win0_3.index t (2 : Fin 4) * 2048 + 1 * (k0_off1 (grid0.coords t) 2 + 1 * p.val) = r.val; rw [a2, ho, hr]; show 0 * 2048 + 1 * (512 * (grid0.coords t 2).val + 1 * p.val) = _; rw [hc]; omega
    | ⟨3, _⟩ => show win0_3.index t (3 : Fin 4) * 2048 + 1 * (k0_off1 (grid0.coords t) 3 + 1 * j.val) = j.val; rw [a3, ho]; show 0 * 2048 + 1 * (0 + 1 * j.val) = _; omega
  rw [e]
  exact ne_zero_of_widen _

/-! ## What each point writes back -/

/-- WHAT POINT `t` WRITES BACK to the weights array is the block of `GW` of the arguments that its window names. -/
theorem flushed5_eq (c : Dev nD) (t : Fin cfg0.N) :
    (dats m 0 c).flushed 5 t = ((cfg0.win 5).blk t).view.read (Elt Ideal) (GW (m ((c : Thread nD τ).loc main_arg0)) (m ((c : Thread nD τ).loc main_arg1)) (m ((c : Thread nD τ).loc main_arg3))) := by
  show (cfg0.win 5).cut (grid0.coords t) ((dats m 0 c).after 5 t) = _
  rw [after0_5, Carry.weights_at]
  obtain ⟨-, -, -, -, -, ⟨f0, f1, f2, f3⟩, -⟩ := Carry.idx_facts t
  funext y
  rw [View.read_apply]
  show awTerm (F := Ideal) (grid0.coords t) (iblk m c 0 t) (iblk m c 1 t) (iblk m c 3 t) (k0_pay10 (iblk m c 1 t)) y
    = GW (m ((c : Thread nD τ).loc main_arg0)) (m ((c : Thread nD τ).loc main_arg1)) (m ((c : Thread nD τ).loc main_arg3)) (((cfg0.win 5).blk t).view.emb y)
  have y0 : (y 0).val = 0 := by have : (y 0).val < 1 := (y 0).isLt; omega
  have y1 : (y 1).val = 0 := by have : (y 1).val < 1 := (y 1).isLt; omega
  have g0 : ((((cfg0.win 5).blk t).view.emb y) 0).val = t.val / 64 := by
    show win0_5.index t (0 : Fin 4) * 1 + 1 * (y 0).val = _; rw [f0, y0]; omega
  have g1 : ((((cfg0.win 5).blk t).view.emb y) 1).val = t.val / 4 % 16 := by
    show win0_5.index t (1 : Fin 4) * 1 + 1 * (y 1).val = _; rw [f1, y1]; omega
  have g2 : ((((cfg0.win 5).blk t).view.emb y) 2).val = t.val % 4 * 512 + (y 2).val := by
    show win0_5.index t (2 : Fin 4) * 512 + 1 * (y 2).val = _; rw [f2]; omega
  have g3 : (y 3).val = ((((cfg0.win 5).blk t).view.emb y) 3).val := by
    show _ = win0_5.index t (3 : Fin 4) * 2048 + 1 * (y 3).val; rw [f3]; omega
  refine entry5 (grid0.coords t) (iblk m c 0 t) (iblk m c 1 t) (iblk m c 3 t) (m ((c : Thread nD τ).loc main_arg0)) (m ((c : Thread nD τ).loc main_arg1)) (m ((c : Thread nD τ).loc main_arg3)) y
    (((cfg0.win 5).blk t).view.emb y) (fun d => ?_) (fun j d => ?_) (fun j => ?_) g3
  · exact read0 m c t (y 2) d _ g0 g1 g2 rfl
  · exact read1 m c t j d _ g0 g1 rfl rfl
  · exact read3 m c t (y 2) j _ g2

/-- WHAT POINT `t` WRITES BACK to the output array is the block of `GO` of the arguments that its window names. -/
theorem flushed4_eq (c : Dev nD) (t : Fin cfg0.N) :
    (dats m 0 c).flushed 4 t = ((cfg0.win 4).blk t).view.read (Elt Ideal) (GO (m ((c : Thread nD τ).loc main_arg0)) (m ((c : Thread nD τ).loc main_arg1)) (m ((c : Thread nD τ).loc main_arg2)) (m ((c : Thread nD τ).loc main_arg3))) := by
  show (cfg0.win 4).cut (grid0.coords t) ((dats m 0 c).after 4 t) = _
  rw [after0_4, Carry.outputs_at]
  obtain ⟨-, -, -, -, ⟨f0, f1, f2, f3⟩, -⟩ := Carry.idx_facts t
  funext y
  rw [View.read_apply]
  show outTerm (F := Ideal) (grid0.coords t) (iblk m c 0 t) (iblk m c 1 t) (iblk m c 2 t) (iblk m c 3 t) (k0_pay10 (iblk m c 1 t)) y
    = GO (m ((c : Thread nD τ).loc main_arg0)) (m ((c : Thread nD τ).loc main_arg1)) (m ((c : Thread nD τ).loc main_arg2)) (m ((c : Thread nD τ).loc main_arg3)) (((cfg0.win 4).blk t).view.emb y)
  have y0 : (y 0).val = 0 := by have : (y 0).val < 1 := (y 0).isLt; omega
  have y1 : (y 1).val = 0 := by have : (y 1).val < 1 := (y 1).isLt; omega
  have g0 : ((((cfg0.win 4).blk t).view.emb y) 0).val = t.val / 64 := by
    show win0_4.index t (0 : Fin 4) * 1 + 1 * (y 0).val = _; rw [f0, y0]; omega
  have g1 : ((((cfg0.win 4).blk t).view.emb y) 1).val = t.val / 4 % 16 := by
    show win0_4.index t (1 : Fin 4) * 1 + 1 * (y 1).val = _; rw [f1, y1]; omega
  have g2 : ((((cfg0.win 4).blk t).view.emb y) 2).val = t.val % 4 * 512 + (y 2).val := by
    show win0_4.index t (2 : Fin 4) * 512 + 1 * (y 2).val = _; rw [f2]; omega
  have g3 : (y 3).val = ((((cfg0.win 4).blk t).view.emb y) 3).val := by
    show _ = win0_4.index t (3 : Fin 4) * 64 + 1 * (y 3).val; rw [f3]; omega
  refine entry4 (grid0.coords t) (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) y
    (((cfg0.win 4).blk t).view.emb y) (fun d => ?_) (fun j d => ?_) (fun j d => ?_) (fun j => ?_) g3
  · exact read0 m c t (y 2) d _ g0 g1 g2 rfl
  · exact read1 m c t j d _ g0 g1 rfl rfl
  · exact read2 m c t j d _ g0 g1 rfl rfl
  · exact read3 m c t (y 2) j _ g2

/-! ## The blocks tile the arrays -/

/-- Row `(b, h, r)` of a result array lies in the block of point `64 b + 4 h + r / 512`. -/
def pointOf (b h r : ℕ) (hb : b < 2) (hh : h < 16) (hr : r < 2048) : Fin cfg0.N :=
  ⟨64 * b + 4 * h + r / 512, by rw [show cfg0.N = 128 from N_0]; omega⟩

theorem cover5 (c : Dev nD) (i : S2x16x2048x2048.Idx) :
    ∃ t : Fin cfg0.N, (cfg0.win 5).flush t = true ∧ i ∈ ((cfg0.win 5).blk t).view.set := by
  have h0 : (i 0).val < 2 := (i 0).isLt
  have h1 : (i 1).val < 16 := (i 1).isLt
  have h2 : (i 2).val < 2048 := (i 2).isLt
  have h3 : (i 3).val < 2048 := (i 3).isLt
  obtain ⟨t, tv⟩ : ∃ t : Fin cfg0.N, t.val = 64 * (i 0).val + 4 * (i 1).val + (i 2).val / 512 :=
    ⟨pointOf (i 0).val (i 1).val (i 2).val h0 h1 h2, rfl⟩
  refine ⟨t, flush0_5 t, ?_⟩
  obtain ⟨-, -, -, -, -, ⟨f0, f1, f2, f3⟩, -⟩ := Carry.idx_facts t
  show i ∈ ((View.whole main_v1_1).slice (win0_5.rect t)).set
  rw [View.set_slice_whole, Rect.mem_set_unit]
  intro a
  match a with
  | ⟨0, _⟩ => show win0_5.index t (0 : Fin 4) * 1 ≤ (i 0).val ∧ (i 0).val < win0_5.index t (0 : Fin 4) * 1 + 1; rw [f0, tv]; omega
  | ⟨1, _⟩ => show win0_5.index t (1 : Fin 4) * 1 ≤ (i 1).val ∧ (i 1).val < win0_5.index t (1 : Fin 4) * 1 + 1; rw [f1, tv]; omega
  | ⟨2, _⟩ => show win0_5.index t (2 : Fin 4) * 512 ≤ (i 2).val ∧ (i 2).val < win0_5.index t (2 : Fin 4) * 512 + 512; rw [f2, tv]; omega
  | ⟨3, _⟩ => show win0_5.index t (3 : Fin 4) * 2048 ≤ (i 3).val ∧ (i 3).val < win0_5.index t (3 : Fin 4) * 2048 + 2048; rw [f3]; omega

theorem cover4 (c : Dev nD) (i : S2x16x2048x64.Idx) :
    ∃ t : Fin cfg0.N, (cfg0.win 4).flush t = true ∧ i ∈ ((cfg0.win 4).blk t).view.set := by
  have h0 : (i 0).val < 2 := (i 0).isLt
  have h1 : (i 1).val < 16 := (i 1).isLt
  have h2 : (i 2).val < 2048 := (i 2).isLt
  have h3 : (i 3).val < 64 := (i 3).isLt
  obtain ⟨t, tv⟩ : ∃ t : Fin cfg0.N, t.val = 64 * (i 0).val + 4 * (i 1).val + (i 2).val / 512 :=
    ⟨pointOf (i 0).val (i 1).val (i 2).val h0 h1 h2, rfl⟩
  refine ⟨t, flush0_4 t, ?_⟩
  obtain ⟨-, -, -, -, ⟨f0, f1, f2, f3⟩, -⟩ := Carry.idx_facts t
  show i ∈ ((View.whole main_v1_0).slice (win0_4.rect t)).set
  rw [View.set_slice_whole, Rect.mem_set_unit]
  intro a
  match a with
  | ⟨0, _⟩ => show win0_4.index t (0 : Fin 4) * 1 ≤ (i 0).val ∧ (i 0).val < win0_4.index t (0 : Fin 4) * 1 + 1; rw [f0, tv]; omega
  | ⟨1, _⟩ => show win0_4.index t (1 : Fin 4) * 1 ≤ (i 1).val ∧ (i 1).val < win0_4.index t (1 : Fin 4) * 1 + 1; rw [f1, tv]; omega
  | ⟨2, _⟩ => show win0_4.index t (2 : Fin 4) * 512 ≤ (i 2).val ∧ (i 2).val < win0_4.index t (2 : Fin 4) * 512 + 512; rw [f2, tv]; omega
  | ⟨3, _⟩ => show win0_4.index t (3 : Fin 4) * 64 ≤ (i 3).val ∧ (i 3).val < win0_4.index t (3 : Fin 4) * 64 + 64; rw [f3]; omega

/-- THE WEIGHTS ARRAY after the run. -/
theorem final5 (c : Dev nD) : (dats m 0 c).arrAt 5 cfg0.N = GW (m ((c : Thread nD τ).loc main_arg0)) (m ((c : Thread nD τ).loc main_arg1)) (m ((c : Thread nD τ).loc main_arg3)) :=
  (dats m 0 c).arrAt_eq_of_cover 5 (GW (m ((c : Thread nD τ).loc main_arg0)) (m ((c : Thread nD τ).loc main_arg1)) (m ((c : Thread nD τ).loc main_arg3))) (fun t _ => flushed5_eq m c t) (cover5 c)

/-- THE OUTPUT ARRAY after the run. -/
theorem final4 (c : Dev nD) : (dats m 0 c).arrAt 4 cfg0.N = GO (m ((c : Thread nD τ).loc main_arg0)) (m ((c : Thread nD τ).loc main_arg1)) (m ((c : Thread nD τ).loc main_arg2)) (m ((c : Thread nD τ).loc main_arg3)) :=
  (dats m 0 c).arrAt_eq_of_cover 4 (GO (m ((c : Thread nD τ).loc main_arg0)) (m ((c : Thread nD τ).loc main_arg1)) (m ((c : Thread nD τ).loc main_arg2)) (m ((c : Thread nD τ).loc main_arg3))) (fun t _ => flushed4_eq m c t) (cover4 c)

/-- THE KERNEL'S RUN, READ: every weakly fair execution ends with the two result arrays at the specification's
    functions of the arguments, the arguments unchanged. -/
theorem run : θ_run defs (onTc (τ := τ) (main (F := Ideal))) ⟨m, fun _ => 0, ρ⟩ fun r => ∀ c : Dev nD,
      r.2.mem ((c : Thread nD τ).loc main_v1_0) = GO (m ((c : Thread nD τ).loc main_arg0)) (m ((c : Thread nD τ).loc main_arg1)) (m ((c : Thread nD τ).loc main_arg2)) (m ((c : Thread nD τ).loc main_arg3))
      ∧ r.2.mem ((c : Thread nD τ).loc main_v1_1) = GW (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (run_blocks m ρ)

end Cert.KernelIdeal.KFinal

end
-- ==== Proof.RefValue.lean ====
/-
  The reference, entry by entry, is the same masked softmax attention.

  Its weights array at `(b, h, r, j)`: the raw score is the dot product of query row `(b, h, r)` and key row `(b, h, j)`,
  the squared norms are row sums of squares broadcast along the other axis, the mask bit is row `r` of the one shared
  mask; the key is masked when the bit is set or the DISTANCE — the square root of the clamped squared distance —
  reaches the threshold, the unmasked score is the raw score OVER 8; then the softmax along `j` (the row maximum taken
  once more against `-∞`, which changes nothing; the row sum started from `0`).  Its output array at `(b, h, r, d)` is
  the weights' combination of column `d` of the head's values.  Both are the functions `GW`, `GO` of the specification,
  the score's two spellings being equal.
-/
import proofs.«166054_j29824252903756_2_alg».proof.Proof.Gen.ReferenceIdeal.Read
import proofs.«166054_j29824252903756_2_alg».proof.Proof.Spec

set_option maxRecDepth 16384

noncomputable section

namespace Cert.ReferenceIdeal.RefValue

open scoped BigOperators
open Idealize.ShloMosaic Idealize.ShloMosaic.ValueIdx
open Cert.ReferenceIdeal Cert.ReferenceIdeal.Gen Cert.ReferenceIdeal.Read Cert.Attn

variable (x0 x1 : (⟨S2x16x2048x64, .f32⟩ : BufTy).Contents (Elt Ideal)) (x3 : (⟨S1x1x2048x2048, .i1⟩ : BufTy).Contents (Elt Ideal))

/-- Row `(b, h, r)` of a `[2, 16, 2048, 64]` array. -/
abbrev row (x : (⟨S2x16x2048x64, .f32⟩ : BufTy).Contents (Elt Ideal)) (b : Fin 2) (h : Fin 16) (r : Fin 2048) : Fin 64 → EReal :=
  fun d => x (ix4 b h r d)

/-- The raw score. -/
theorem ref_qk (i : S2x16x2048x2048.Idx) :
    val_main_v0 (F := Ideal) x0 x1 i = dot (row x0 (i 0) (i 1) (i 2)) (row x1 (i 0) (i 1) (i 3)) := by
  rw [val_main_v0_apply]
  unfold dot
  refine Finset.sum_congr rfl fun k _ => congrArg₂ (· * ·) (congrArg x0 (funext fun a => Fin.ext ?_)) (congrArg x1 (funext fun a => Fin.ext ?_))
  · match a with | ⟨0, _⟩ => rfl | ⟨1, _⟩ => rfl | ⟨2, _⟩ => rfl | ⟨3, _⟩ => rfl
  · match a with | ⟨0, _⟩ => rfl | ⟨1, _⟩ => rfl | ⟨2, _⟩ => rfl | ⟨3, _⟩ => rfl

/-- The query's squared norm, broadcast along the keys. -/
theorem ref_q2 (i : S2x16x2048x2048.Idx) :
    val_main_v9 (F := Ideal) x0 i = dot (row x0 (i 0) (i 1) (i 2)) (row x0 (i 0) (i 1) (i 2)) := by
  rw [val_main_v9_apply, val_main_v5_apply, val_main_v4_apply, val_main_cst_0_apply]
  show Ideal.ofBits .f32 0x00000000#32 + _ = _
  rw [Consts.ofBits_zero, zero_add]
  unfold dot
  refine Finset.sum_congr rfl fun k _ => ?_
  rw [val_main_v3_apply]
  have e : idx_main_v4 (idx_main_v5 (idx_main_v9 i)) k = ix4 (i 0) (i 1) (i 2) k :=
    funext fun a => Fin.ext (by match a with | ⟨0, _⟩ => rfl | ⟨1, _⟩ => rfl | ⟨2, _⟩ => rfl | ⟨3, _⟩ => rfl)
  rw [e]
  rfl

/-- The key's squared norm, broadcast along the queries. -/
theorem ref_k2 (i : S2x16x2048x2048.Idx) :
    val_main_v10 (F := Ideal) x1 i = dot (row x1 (i 0) (i 1) (i 3)) (row x1 (i 0) (i 1) (i 3)) := by
  rw [val_main_v10_apply, val_main_v8_apply, val_main_v7_apply, val_main_cst_1_apply]
  show Ideal.ofBits .f32 0x00000000#32 + _ = _
  rw [Consts.ofBits_zero, zero_add]
  unfold dot
  refine Finset.sum_congr rfl fun k _ => ?_
  rw [val_main_v6_apply]
  have e : idx_main_v7 (idx_main_v8 (idx_main_v10 i)) k = ix4 (i 0) (i 1) (i 3) k :=
    funext fun a => Fin.ext (by match a with | ⟨0, _⟩ => rfl | ⟨1, _⟩ => rfl | ⟨2, _⟩ => rfl | ⟨3, _⟩ => rfl)
  rw [e]
  rfl

/-- The masked score, in the reference's spelling. -/
theorem ref_score (i : S2x16x2048x2048.Idx) :
    val_main_v22 (F := Ideal) x0 x1 x3 i
      = scoreRt (x3 (ix4 (0 : Fin 1) (0 : Fin 1) (i 2) (i 3))) (dot (row x0 (i 0) (i 1) (i 2)) (row x1 (i 0) (i 1) (i 3)))
          (dot (row x0 (i 0) (i 1) (i 2)) (row x0 (i 0) (i 1) (i 2))) (dot (row x1 (i 0) (i 1) (i 3)) (row x1 (i 0) (i 1) (i 3))) := by
  rw [val_main_v22_apply, val_main_v21_apply, val_main_v20_apply, val_main_v19_apply, val_main_v17_apply, val_main_v16_apply,
    val_main_v14_apply, val_main_v11_apply, val_main_v13_apply, val_main_v12_apply, val_main_cst_2_apply, val_main_v15_apply,
    val_main_cst_3_apply, val_main_v18_apply, val_main_cst_4_apply, val_main_call0_v0_apply, val_main_cst_5_apply,
    val_main_v2_apply, val_main_v1_apply, val_main_cst_apply, ref_qk, ref_q2, ref_k2]
  have e : idx_main_v20 i = ix4 (0 : Fin 1) (0 : Fin 1) (i 2) (i 3) :=
    funext fun a => Fin.ext (by match a with | ⟨0, _⟩ => rfl | ⟨1, _⟩ => rfl | ⟨2, _⟩ => rfl | ⟨3, _⟩ => rfl)
  rw [e]
  rfl

/-- The row of masked scores that entry `i` lies in. -/
abbrev scoreRow (i : S2x16x2048x2048.Idx) : Fin 2048 → EReal :=
  fun k => val_main_v22 (F := Ideal) x0 x1 x3 (ix4 (i 0) (i 1) (i 2) k)

/-- The row's maximum, broadcast back. -/
theorem ref_max (i : S2x16x2048x2048.Idx) : val_main_v27 (F := Ideal) x0 x1 x3 i = rowMax (scoreRow x0 x1 x3 i) := by
  rw [val_main_v27_apply, val_main_v26_apply, val_main_v25_apply, val_main_v24_apply, val_main_cst_7_apply]
  unfold val_main_v23
  rw [Host.reduce_eq_fold_single FloatOps.maximumf _ _ reducesTo_S2x16x2048x2048_S2x16x2048_d3 (by decide) h_S_]
  refine (max_ninf_left _).trans ?_
  unfold rowMax
  refine congrArg ((Finset.univ : Finset (Fin 2048)).fold max (Ideal.ofBits .f32 0xFF800000#32)) (funext fun k => ?_)
  exact congrArg (val_main_v22 (F := Ideal) x0 x1 x3)
    (funext fun a => Fin.ext (by match a with | ⟨0, _⟩ => rfl | ⟨1, _⟩ => rfl | ⟨2, _⟩ => rfl | ⟨3, _⟩ => rfl))

/-- The exponential of the shifted score. -/
theorem ref_exp (i : S2x16x2048x2048.Idx) :
    val_main_v29 (F := Ideal) x0 x1 x3 i = Ideal.exp (val_main_v22 (F := Ideal) x0 x1 x3 i - rowMax (scoreRow x0 x1 x3 i)) := by
  rw [val_main_v29_apply, val_main_v28_apply, ref_max]
  rfl

/-- The row's sum of exponentials, broadcast back. -/
theorem ref_sum (i : S2x16x2048x2048.Idx) :
    val_main_v32 (F := Ideal) x0 x1 x3 i
      = ∑ k : Fin 2048, Ideal.exp (scoreRow x0 x1 x3 i k - rowMax (scoreRow x0 x1 x3 i)) := by
  rw [val_main_v32_apply, val_main_v31_apply, val_main_v30_apply, val_main_cst_8_apply]
  show Ideal.ofBits .f32 0x00000000#32 + _ = _
  rw [Consts.ofBits_zero, zero_add]
  refine Finset.sum_congr rfl fun k _ => ?_
  have e : idx_main_v30 (idx_main_v31 (idx_main_v32 i)) k = ix4 (i 0) (i 1) (i 2) k :=
    funext fun a => Fin.ext (by match a with | ⟨0, _⟩ => rfl | ⟨1, _⟩ => rfl | ⟨2, _⟩ => rfl | ⟨3, _⟩ => rfl)
  rw [e]
  exact ref_exp x0 x1 x3 (ix4 (i 0) (i 1) (i 2) k)

/-- The row of scores is the specification's, the two spellings of the score being equal. -/
theorem scoreRow_eq (i : S2x16x2048x2048.Idx) :
    scoreRow x0 x1 x3 i = fun k => scoreSq (x3 (ix4 (0 : Fin 1) (0 : Fin 1) (i 2) k)) (dot (row x0 (i 0) (i 1) (i 2)) (row x1 (i 0) (i 1) k))
      (dot (row x0 (i 0) (i 1) (i 2)) (row x0 (i 0) (i 1) (i 2))) (dot (row x1 (i 0) (i 1) k) (row x1 (i 0) (i 1) k)) :=
  funext fun k => (ref_score x0 x1 x3 (ix4 (i 0) (i 1) (i 2) k)).trans (scoreSq_eq_scoreRt _ _ _ _).symm

/-- THE REFERENCE'S WEIGHTS are the specification's. -/
theorem weights_eq : val_main_v33 (F := Ideal) x0 x1 x3 = GW x0 x1 x3 := by
  funext i
  rw [val_main_v33_apply, ref_exp, ref_sum]
  have hi : val_main_v22 (F := Ideal) x0 x1 x3 i = scoreRow x0 x1 x3 i (i 3) :=
    congrArg (val_main_v22 (F := Ideal) x0 x1 x3) (eq_ix4 i)
  rw [hi, scoreRow_eq]
  rfl

/-- THE REFERENCE'S OUTPUT is the specification's. -/
theorem output_eq (x2 : (⟨S2x16x2048x64, .f32⟩ : BufTy).Contents (Elt Ideal)) :
    val_main_v34 (F := Ideal) x0 x1 x2 x3 = GO x0 x1 x2 x3 := by
  funext i
  rw [val_main_v34_apply, weights_eq]
  unfold GO output
  refine Finset.sum_congr rfl fun k _ => congrArg₂ (· * ·) ?_ (congrArg x2 (funext fun a => Fin.ext ?_))
  · rfl
  · match a with | ⟨0, _⟩ => rfl | ⟨1, _⟩ => rfl | ⟨2, _⟩ => rfl | ⟨3, _⟩ => rfl

end Cert.ReferenceIdeal.RefValue

end
-- ==== Proof.lean ====
/-
  Scaled dot-product attention with a distance-threshold mask, f32[2, 16, 2048, 64] queries, keys and values and one
  shared bool[2048, 2048] mask: a kernel tiled over (batch, head, 512 query rows) against the plain formulation.

  For a query row `q` and the keys `k_j` of its head, key `j` is masked when its mask bit is set or the distance
  `|q − k_j|` reaches `T = 11848909 / 2^20`; a masked key scores `-10⁹`, an unmasked one `q·k_j / 8`; the weights are the
  softmax of the scores along `j`, the output their combination of the value rows.  Both programs compute the squared
  distance as `max (|q|² + |k_j|² − 2 q·k_j) 0`.

  The two programs differ in three places, none of which changes the value on the extended reals.
  * The kernel tests the SQUARED distance against `T²` — its threshold constant is read as the exact square of the
    reference's threshold — where the reference takes the square root and tests it against `T`: for `d ≥ 0` or
    `d = +∞`, `T ≤ √d` iff `T² ≤ d`.
  * The kernel multiplies the raw score by `1/8`, the reference divides it by `8`: one function of any extended real.
  * The kernel computes the squared key norms once per head, at the head's first query tile, and keeps them in a scratch
    row for the head's other three tiles.  The key block is the same at all four tiles, so by induction over the grid
    every tile adds the squared norms of its own keys.
  Sums and products are exact, so the kernel's blockwise products and row reductions are the reference's contractions
  and reductions entry by entry, and the 128 blocks tile each result array.  No step needs the inputs to be finite.
-/
import proofs.«166054_j29824252903756_2_alg».proof.Defs
import proofs.«166054_j29824252903756_2_alg».proof.Proof.Gen.Kernel
import proofs.«166054_j29824252903756_2_alg».proof.Proof.Gen.Kernel.Skeleton
import proofs.«166054_j29824252903756_2_alg».proof.Proof.Gen.Kernel.Launch
import proofs.«166054_j29824252903756_2_alg».proof.Proof.Gen.Kernel.Points
import proofs.«166054_j29824252903756_2_alg».proof.Proof.Gen.Kernel.Frame
import proofs.«166054_j29824252903756_2_alg».proof.Proof.Gen.KernelIdeal
import proofs.«166054_j29824252903756_2_alg».proof.Proof.Gen.KernelIdeal.Skeleton
import proofs.«166054_j29824252903756_2_alg».proof.Proof.Gen.KernelIdeal.Launch
import proofs.«166054_j29824252903756_2_alg».proof.Proof.Gen.KernelIdeal.Points
import proofs.«166054_j29824252903756_2_alg».proof.Proof.Gen.KernelIdeal.Frame
import proofs.«166054_j29824252903756_2_alg».proof.Proof.Gen.ReferenceIdeal
import proofs.«166054_j29824252903756_2_alg».proof.Proof.Gen.KernelIdeal.Value
import proofs.«166054_j29824252903756_2_alg».proof.Proof.Gen.ReferenceIdeal.Run
import proofs.«166054_j29824252903756_2_alg».proof.Proof.Gen.ReferenceIdeal.Read
import proofs.«166054_j29824252903756_2_alg».proof.Proof.Gen.Pre_finite_inputs
import proofs.«166054_j29824252903756_2_alg».proof.Proof.KFinal
import proofs.«166054_j29824252903756_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The kernel's threshold constant, the f32 nearest `T²`, is read as `T² = 140396644490281 / 2^40` exactly. -/
theorem preserves : Cert.preserves_Kernel_KernelIdeal :=
  IdealRules.named_const.statement Cert.KernelIdeal.κ "thr_sq" .f32 0x42FF6148#32
    ((140396644490281 / 1099511627776 : ℝ) : EReal) rfl

/-- Both programs end with the specification's output and weights arrays of arguments that agree. -/
theorem algebraic : Cert.algebraic_KernelIdeal_ReferenceIdeal := by
  intro m ρ m' ρ' _ hagree
  refine ⟨_, _, Cert.KernelIdeal.KFinal.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v34_eq, Cert.ReferenceIdeal.RefValue.output_eq, (hagree c).1, (hagree c).2.1,
      (hagree c).2.2.1, (hagree c).2.2.2]
  · rw [Cert.ReferenceIdeal.Read.val_main_v33_eq, Cert.ReferenceIdeal.RefValue.weights_eq, (hagree c).1, (hagree c).2.1,
      (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
